-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x128 : Shape := ⟨2, ![200000, 128]⟩
abbrev S400000x1 : Shape := ⟨2, ![400000, 1]⟩
abbrev S128x128 : Shape := ⟨2, ![128, 128]⟩
abbrev S128 : Shape := ⟨1, ![128]⟩
abbrev S129x128 : Shape := ⟨2, ![129, 128]⟩
abbrev S1600000 : Shape := ⟨1, ![1600000]⟩
abbrev S_ : Shape := ⟨0, ![]⟩

class Facts : Prop where
  bcast_S_S200000x128 : S_.BroadcastsInDim S200000x128 (![] : Fin 0 → Fin S200000x128.rank)
  reducesTo_S200000x128_S_d0_1 : S200000x128.ReducesTo [0, 1] S_
  h_S_ : 0 < S_.numel
  bcast_S_S400000x1 : S_.BroadcastsInDim S400000x1 (![] : Fin 0 → Fin S400000x1.rank)
  reducesTo_S400000x1_S_d0_1 : S400000x1.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S129x128 : S_.BroadcastsInDim S129x128 (![] : Fin 0 → Fin S129x128.rank)
  reducesTo_S129x128_S_d0_1 : S129x128.ReducesTo [0, 1] S_

variable [Facts]

def fn_part1 {F : FTy → Type} [FloatOps F] (main_arg4 : FVec F S129x128 .f32) (main_arg5 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S129x128 .f32 := Host.absf main_arg4
  let main_cst_6 : FVec F S_ .f32 := constant S_ .f32 0x7F800000#32
  let main_v20 : FVec F S129x128 .f32 := broadcastInDim S129x128 ![] bcast_S_S129x128 main_cst_6
  let main_v21 : IVec S129x128 1 := cmpf .olt main_v19 main_v20
  let main_c_7 : IVec S_ 1 := constantI S_ 1 1#1
  let main_v22 : IVec S_ 1 := (fun x v => Host.reduce IntOp.andi x v reducesTo_S129x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S200000x128 .f32) (main_arg1 : FVec F S400000x1 .f32) (main_arg2 : FVec F S128x128 .f32) (main_arg3 : FVec F S128 .f32) (main_arg4 : FVec F S129x128 .f32) (main_arg5 : FVec F S128 .f32) (main_arg6 : IVec S1600000 32) (main_arg7 : IVec S1600000 32) : IVec S_ 1 :=
  let main_v0 : FVec F S200000x128 .f32 := Host.absf main_arg0
  let main_cst : FVec F S_ .f32 := constant S_ .f32 0x7F800000#32
  let main_v1 : FVec F S200000x128 .f32 := broadcastInDim S200000x128 ![] bcast_S_S200000x128 main_cst
  let main_v2 : IVec S200000x128 1 := cmpf .olt main_v0 main_v1
  let main_c : IVec S_ 1 := constantI S_ 1 1#1
  let main_v3 : IVec S_ 1 := (fun x v => Host.reduce IntOp.andi x v reducesTo_S200000x128_S_d0_1 h_S_) main_v2 main_c
  let main_v4 : FVec F S400000x1 .f32 := Host.absf main_arg1
  let main_cst_0 : FVec F S_ .f32 := constant S_ .f32 0x7F800000#32
  let main_v5 : FVec F S400000x1 .f32 := broadcastInDim S400000x1 ![] bcast_S_S400000x1 main_cst_0
  let main_v6 : IVec S400000x1 1 := cmpf .olt main_v4 main_v5
  let main_c_1 : IVec S_ 1 := constantI S_ 1 1#1
  let main_v7 : IVec S_ 1 := (fun x v => Host.reduce IntOp.andi x v reducesTo_S400000x1_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_v13 main_v16
-- ==== Kernel.lean ====
abbrev S200000x128 : Shape := ⟨2, ![200000, 128]⟩
abbrev S400000x1 : Shape := ⟨2, ![400000, 1]⟩
abbrev S128x128 : Shape := ⟨2, ![128, 128]⟩
abbrev S128 : Shape := ⟨1, ![128]⟩
abbrev S129x128 : Shape := ⟨2, ![129, 128]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S400000x128 : Shape := ⟨2, ![400000, 128]⟩
abbrev S1x128 : Shape := ⟨2, ![1, 128]⟩
abbrev S4000x128 : Shape := ⟨2, ![4000, 128]⟩
abbrev S200000x1 : Shape := ⟨2, ![200000, 1]⟩
abbrev S4000x1 : Shape := ⟨2, ![4000, 1]⟩

abbrev nBuf : Space → Nat
  | .hbm => 53
  | .vmem => 15
  | .smem => 0
  | _ => 0

abbrev bufTy : (tb : Table) → Fin (tcTables nBuf tb) → BufTy
  | .hbm, ⟨0, _⟩ => ⟨S200000x128, .f32⟩
  | .hbm, ⟨1, _⟩ => ⟨S400000x1, .f32⟩
  | .hbm, ⟨2, _⟩ => ⟨S128x128, .f32⟩
  | .hbm, ⟨3, _⟩ => ⟨S128, .f32⟩
  | .hbm, ⟨4, _⟩ => ⟨S129x128, .f32⟩
  | .hbm, ⟨5, _⟩ => ⟨S128, .f32⟩
  | .hbm, ⟨6, _⟩ => ⟨S1600000, .i32⟩
  | .hbm, ⟨7, _⟩ => ⟨S1600000, .i32⟩
  | .hbm, ⟨8, _⟩ => ⟨S_, .i32⟩
  | .hbm, ⟨9, _⟩ => ⟨S1600000, .i32⟩
  | .hbm, ⟨10, _⟩ => ⟨S1600000, .i1⟩
  | .hbm, ⟨11, _⟩ => ⟨S_, .i32⟩
  | .hbm, ⟨12, _⟩ => ⟨S1600000, .i32⟩
  | .hbm, ⟨13, _⟩ => ⟨S1600000, .i32⟩
  | .hbm, ⟨14, _⟩ => ⟨S1600000, .i32⟩
  | .hbm, ⟨15, _⟩ => ⟨S1600000x1, .i32⟩
  | .hbm, ⟨16, _⟩ => ⟨S1600000x128, .f32⟩
  | .hbm, ⟨17, _⟩ => ⟨S_, .f32⟩
  | .hbm, ⟨18, _⟩ => ⟨S400000x128, .f32⟩
  | .hbm, ⟨19, _⟩ => ⟨S1600000x1, .i32⟩
  | .hbm, ⟨20, _⟩ => ⟨S400000x128, .f32⟩
  | .hbm, ⟨21, _⟩ => ⟨S1x128, .f32⟩
  | .hbm, ⟨22, _⟩ => ⟨S400000x128, .f32⟩
  | .hbm, ⟨23, _⟩ => ⟨S_, .i32⟩
  | .hbm, ⟨24, _⟩ => ⟨S1600000, .i32⟩
  | .hbm, ⟨25, _⟩ => ⟨S1600000, .i1⟩
  | .hbm, ⟨26, _⟩ => ⟨S_, .i32⟩
  | .hbm, ⟨27, _⟩ => ⟨S1600000, .i32⟩
  | .hbm, ⟨28, _⟩ => ⟨S1600000, .i32⟩
  | .hbm, ⟨29, _⟩ => ⟨S1600000, .i32⟩
  | .hbm, ⟨30, _⟩ => ⟨S1600000x1, .i32⟩
  | .hbm, ⟨31, _⟩ => ⟨S1600000x128, .f32⟩
  | .hbm, ⟨32, _⟩ => ⟨S_, .f32⟩
  | .hbm, ⟨33, _⟩ => ⟨S200000x128, .f32⟩
  | .hbm, ⟨34, _⟩ => ⟨S1600000x1, .i32⟩
  | .hbm, ⟨35, _⟩ => ⟨S200000x128, .f32⟩
  | .hbm, ⟨36, _⟩ => ⟨S_, .i32⟩
  | .hbm, ⟨37, _⟩ => ⟨S1600000, .i32⟩
  | .hbm, ⟨38, _⟩ => ⟨S1600000, .i1⟩
  | .hbm, ⟨39, _⟩ => ⟨S_, .i32⟩
  | .hbm, ⟨40, _⟩ => ⟨S1600000, .i32⟩
  | .hbm, ⟨41, _⟩ => ⟨S1600000, .i32⟩
  | .hbm, ⟨42, _⟩ => ⟨S1600000, .i32⟩
  | .hbm, ⟨43, _⟩ => ⟨S1600000x1, .i32⟩
  | .hbm, ⟨44, _⟩ => ⟨S1600000x1, .f32⟩
  | .hbm, ⟨45, _⟩ => ⟨S_, .f32⟩
  | .hbm, ⟨46, _⟩ => ⟨S200000x1, .f32⟩
  | .hbm, ⟨47, _⟩ => ⟨S1600000x1, .i32⟩
  | .hbm, ⟨48, _⟩ => ⟨S200000x1, .f32⟩
  | .hbm, ⟨49, _⟩ => ⟨S128x128, .f32⟩
  | .hbm, ⟨50, _⟩ => ⟨S1x128, .f32⟩
  | .hbm, ⟨51, _⟩ => ⟨S1x128, .f32⟩
  | .hbm, ⟨52, _⟩ => ⟨S200000x128, .f32⟩
  | .local _ .vmem, ⟨0, _⟩ => ⟨S4000x128, .f32⟩
  | .local _ .vmem, ⟨1, _⟩ => ⟨S4000x128, .f32⟩
  | .local _ .vmem, ⟨2, _⟩ => ⟨S128x128, .f32⟩
  | .local _ .vmem, ⟨3, _⟩ => ⟨S1x128, .f32⟩
  | .local _ .vmem, ⟨4, _⟩ => ⟨S4000x128, .f32⟩
  | .local _ .vmem, ⟨5, _⟩ => ⟨S4000x128, .f32⟩
  | .local _ .vmem, ⟨6, _⟩ => ⟨S4000x128, .f32⟩
  | .local _ .vmem, ⟨7, _⟩ => ⟨S4000x128, .f32⟩
  | .local _ .vmem, ⟨8, _⟩ => ⟨S128x128, .f32⟩
  | .local _ .vmem, ⟨9, _⟩ => ⟨S4000x1, .f32⟩
  | .local _ .vmem, ⟨10, _⟩ => ⟨S4000x1, .f32⟩
  | .local _ .vmem, ⟨11, _⟩ => ⟨S1x128, .f32⟩
  | .local _ .vmem, ⟨12, _⟩ => ⟨S1x128, .f32⟩
  | .local _ .vmem, ⟨13, _⟩ => ⟨S4000x128, .f32⟩
  | .local _ .vmem, ⟨14, _⟩ => ⟨S4000x128, .f32⟩
  | _, _ => ⟨S200000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_c_1 : Ref sig .tc := ⟨.hbm, 23, rfl⟩
abbrev main_v12 : Ref sig .tc := ⟨.hbm, 24, rfl⟩
abbrev main_v13 : Ref sig .tc := ⟨.hbm, 25, rfl⟩
abbrev main_c_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_3 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_6 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg5_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem5_0 : DmaSem sig := 13
abbrev cc1_sem5_1 : DmaSem sig := 14

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S4000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S4000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S400000x128 : S_.BroadcastsInDim S400000x128 (![] : Fin 0 → Fin S400000x128.rank)
  shapeCasts_S128_S1x128 : S128.ShapeCasts S1x128
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  bcast_S_S200000x128 : S_.BroadcastsInDim S200000x128 (![] : Fin 0 → Fin S200000x128.rank)
  bcast_S_S200000x1 : S_.BroadcastsInDim S200000x1 (![] : Fin 0 → Fin S200000x1.rank)
  slices_S129x128_S128x128_0_0 : S129x128.Slices ![0, 0] S128x128
  slices_S129x128_S1x128_128_0 : S129x128.Slices ![128, 0] S1x128
  shapeCasts_S128x128_S128x128 : S128x128.ShapeCasts S128x128
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x128 : S4000x1.Broadcasts S4000x128
  gather_S200000x128_S1600000x1_S1600000x128_1_0_n_n_0_1_1128_wf : GatherDims.WF S200000x128 S1600000x1 S1600000x128 [1] [0] [] [0] [] 1 ![1, 128]
  scatter_S400000x128_S1600000x1_S1600000x128_1_0_0_1_wf : ScatterDims.WF S400000x128 S1600000x1 S1600000x128 [1] [0] [0] 1
  dot_S4000x128_S128x128_S4000x128_1_0_0_1_n_n_wf : DotDims.WF S4000x128 S128x128 S4000x128 [1] [0] [0] [1] [] []
  gather_S400000x128_S1600000x1_S1600000x128_1_0_n_n_0_1_1128_wf : GatherDims.WF S400000x128 S1600000x1 S1600000x128 [1] [0] [] [0] [] 1 ![1, 128]
  scatter_S200000x128_S1600000x1_S1600000x128_1_0_0_1_wf : ScatterDims.WF S200000x128 S1600000x1 S1600000x128 [1] [0] [0] 1
  gather_S400000x1_S1600000x1_S1600000x1_1_0_n_n_0_1_11_wf : GatherDims.WF S400000x1 S1600000x1 S1600000x1 [1] [0] [] [0] [] 1 ![1, 1]
  scatter_S200000x1_S1600000x1_S1600000x1_1_0_0_1_wf : ScatterDims.WF S200000x1 S1600000x1 S1600000x1 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S400000x128.size a
  hwx0_0 : ∀ i : grid0.Coords, EltTy.bits .f32 = 32 ∨ (Rect.block (s := S400000x128) S4000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x128.size a ≤ S400000x128.size a
  hwx0_3 : ∀ i : grid0.Coords, EltTy.bits .f32 = 32 ∨ (Rect.block (s := S400000x128) S4000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S200000x128.size a
  hwx1_0 : ∀ i : grid1.Coords, EltTy.bits .f32 = 32 ∨ (Rect.block (s := S200000x128) S4000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x1.size a ≤ S200000x1.size a
  hwx1_2 : ∀ i : grid1.Coords, EltTy.bits .f32 = 32 ∨ (Rect.block (s := S200000x1) S4000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S4000x128.size a ≤ S200000x128.size a
  hwx1_5 : ∀ i : grid1.Coords, EltTy.bits .f32 = 32 ∨ (Rect.block (s := S200000x128) S4000x128.size (cc1_transform_5 i) (hinb1_5 i)).WholeWords (EltTy.packing .f32)

variable [Facts₀]

def gather_S200000x128_S1600000x1_S1600000x128_1_0_n_n_0_1_1128 : GatherDims S200000x128 S1600000x1 S1600000x128 where
  offsetDims := [1]
  collapsedSliceDims := [0]
  operandBatchingDims := []
  startIndicesBatchingDims := []
  startIndexMap := [0]
  indexVectorDim := 1
  sliceSizes := ![1, 128]
  wf := gather_S200000x128_S1600000x1_S1600000x128_1_0_n_n_0_1_1128_wf
def scatter_S400000x128_S1600000x1_S1600000x128_1_0_0_1 : ScatterDims S400000x128 S1600000x1 S1600000x128 where
  updateWindowDims := [1]
  insertedWindowDims := [0]
  scatterDimsToOperandDims := [0]
  indexVectorDim := 1
  wf := scatter_S400000x128_S1600000x1_S1600000x128_1_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def gather_S400000x128_S1600000x1_S1600000x128_1_0_n_n_0_1_1128 : GatherDims S400000x128 S1600000x1 S1600000x128 where
  offsetDims := [1]
  collapsedSliceDims := [0]
  operandBatchingDims := []
  startIndicesBatchingDims := []
  startIndexMap := [0]
  indexVectorDim := 1
  sliceSizes := ![1, 128]
  wf := gather_S400000x128_S1600000x1_S1600000x128_1_0_n_n_0_1_1128_wf
def scatter_S200000x128_S1600000x1_S1600000x128_1_0_0_1 : ScatterDims S200000x128 S1600000x1 S1600000x128 where
  updateWindowDims := [1]
  insertedWindowDims := [0]
  scatterDimsToOperandDims := [0]
  indexVectorDim := 1
  wf := scatter_S200000x128_S1600000x1_S1600000x128_1_0_0_1_wf
def gather_S400000x1_S1600000x1_S1600000x1_1_0_n_n_0_1_11 : GatherDims S400000x1 S1600000x1 S1600000x1 where
  offsetDims := [1]
  collapsedSliceDims := [0]
  operandBatchingDims := []
  startIndicesBatchingDims := []
  startIndexMap := [0]
  indexVectorDim := 1
  sliceSizes := ![1, 1]
  wf := gather_S400000x1_S1600000x1_S1600000x1_1_0_n_n_0_1_11_wf
def scatter_S200000x1_S1600000x1_S1600000x1_1_0_0_1 : ScatterDims S200000x1 S1600000x1 S1600000x1 where
  updateWindowDims := [1]
  insertedWindowDims := [0]
  scatterDimsToOperandDims := [0]
  indexVectorDim := 1
  wf := scatter_S200000x1_S1600000x1_S1600000x1_1_0_0_1_wf

abbrev win0_0 : Pipeline.Window sig grid0 :=
  Pipeline.Window.ofSpec (Memref.whole main_v9) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v10) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v11) S4000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v21) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v32) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v31) S4000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v33) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v34) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v35) S4000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S200000x128 : Shape := ⟨2, ![200000, 128]⟩
abbrev S400000x1 : Shape := ⟨2, ![400000, 1]⟩
abbrev S128x128 : Shape := ⟨2, ![128, 128]⟩
abbrev S128 : Shape := ⟨1, ![128]⟩
abbrev S129x128 : Shape := ⟨2, ![129, 128]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S400000x128 : Shape := ⟨2, ![400000, 128]⟩
abbrev S1x128 : Shape := ⟨2, ![1, 128]⟩
abbrev S400000x129 : Shape := ⟨2, ![400000, 129]⟩
abbrev S1600000x129 : Shape := ⟨2, ![1600000, 129]⟩
abbrev S200000x129 : Shape := ⟨2, ![200000, 129]⟩

abbrev nBuf : Space → Nat
  | .hbm => 49
  | .vmem => 0
  | .smem => 0
  | _ => 0

abbrev bufTy : (tb : Table) → Fin (tcTables nBuf tb) → BufTy
  | .hbm, ⟨0, _⟩ => ⟨S200000x128, .f32⟩
  | .hbm, ⟨1, _⟩ => ⟨S400000x1, .f32⟩
  | .hbm, ⟨2, _⟩ => ⟨S128x128, .f32⟩
  | .hbm, ⟨3, _⟩ => ⟨S128, .f32⟩
  | .hbm, ⟨4, _⟩ => ⟨S129x128, .f32⟩
  | .hbm, ⟨5, _⟩ => ⟨S128, .f32⟩
  | .hbm, ⟨6, _⟩ => ⟨S1600000, .i32⟩
  | .hbm, ⟨7, _⟩ => ⟨S1600000, .i32⟩
  | .hbm, ⟨8, _⟩ => ⟨S_, .i32⟩
  | .hbm, ⟨9, _⟩ => ⟨S1600000, .i32⟩
  | .hbm, ⟨10, _⟩ => ⟨S1600000, .i1⟩
  | .hbm, ⟨11, _⟩ => ⟨S_, .i32⟩
  | .hbm, ⟨12, _⟩ => ⟨S1600000, .i32⟩
  | .hbm, ⟨13, _⟩ => ⟨S1600000, .i32⟩
  | .hbm, ⟨14, _⟩ => ⟨S1600000, .i32⟩
  | .hbm, ⟨15, _⟩ => ⟨S1600000x1, .i32⟩
  | .hbm, ⟨16, _⟩ => ⟨S1600000x128, .f32⟩
  | .hbm, ⟨17, _⟩ => ⟨S_, .f32⟩
  | .hbm, ⟨18, _⟩ => ⟨S400000x128, .f32⟩
  | .hbm, ⟨19, _⟩ => ⟨S1600000x1, .i32⟩
  | .hbm, ⟨20, _⟩ => ⟨S400000x128, .f32⟩
  | .hbm, ⟨21, _⟩ => ⟨S400000x128, .f32⟩
  | .hbm, ⟨22, _⟩ => ⟨S1x128, .f32⟩
  | .hbm, ⟨23, _⟩ => ⟨S400000x128, .f32⟩
  | .hbm, ⟨24, _⟩ => ⟨S400000x128, .f32⟩
  | .hbm, ⟨25, _⟩ => ⟨S_, .f32⟩
  | .hbm, ⟨26, _⟩ => ⟨S400000x128, .f32⟩
  | .hbm, ⟨27, _⟩ => ⟨S400000x128, .f32⟩
  | .hbm, ⟨28, _⟩ => ⟨S400000x129, .f32⟩
  | .hbm, ⟨29, _⟩ => ⟨S_, .i32⟩
  | .hbm, ⟨30, _⟩ => ⟨S1600000, .i32⟩
  | .hbm, ⟨31, _⟩ => ⟨S1600000, .i1⟩
  | .hbm, ⟨32, _⟩ => ⟨S_, .i32⟩
  | .hbm, ⟨33, _⟩ => ⟨S1600000, .i32⟩
  | .hbm, ⟨34, _⟩ => ⟨S1600000, .i32⟩
  | .hbm, ⟨35, _⟩ => ⟨S1600000, .i32⟩
  | .hbm, ⟨36, _⟩ => ⟨S1600000x1, .i32⟩
  | .hbm, ⟨37, _⟩ => ⟨S1600000x129, .f32⟩
  | .hbm, ⟨38, _⟩ => ⟨S_, .f32⟩
  | .hbm, ⟨39, _⟩ => ⟨S200000x129, .f32⟩
  | .hbm, ⟨40, _⟩ => ⟨S1600000x1, .i32⟩
  | .hbm, ⟨41, _⟩ => ⟨S200000x129, .f32⟩
  | .hbm, ⟨42, _⟩ => ⟨S200000x128, .f32⟩
  | .hbm, ⟨43, _⟩ => ⟨S1x128, .f32⟩
  | .hbm, ⟨44, _⟩ => ⟨S200000x128, .f32⟩
  | .hbm, ⟨45, _⟩ => ⟨S200000x128, .f32⟩
  | .hbm, ⟨46, _⟩ => ⟨S_, .f32⟩
  | .hbm, ⟨47, _⟩ => ⟨S200000x128, .f32⟩
  | .hbm, ⟨48, _⟩ => ⟨S200000x128, .f32⟩
  | _, _ => ⟨S200000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_call0_cst : Ref sig .tc := ⟨.hbm, 25, rfl⟩
abbrev main_call0_v0 : Ref sig .tc := ⟨.hbm, 26, rfl⟩
abbrev main_v14 : Ref sig .tc := ⟨.hbm, 27, rfl⟩
abbrev main_v15 : Ref sig .tc := ⟨.hbm, 28, rfl⟩
abbrev main_c_1 : Ref sig .tc := ⟨.hbm, 29, rfl⟩
abbrev main_v16 : Ref sig .tc := ⟨.hbm, 30, rfl⟩
abbrev main_v17 : Ref sig .tc := ⟨.hbm, 31, rfl⟩
abbrev main_c_2 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_3 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_call1_cst : Ref sig .tc := ⟨.hbm, 46, rfl⟩
abbrev main_call1_v0 : Ref sig .tc := ⟨.hbm, 47, rfl⟩
abbrev main_v30 : Ref sig .tc := ⟨.hbm, 48, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S400000x128 : S_.BroadcastsInDim S400000x128 (![] : Fin 0 → Fin S400000x128.rank)
  bcast_S128_S1x128_1 : S128.BroadcastsInDim S1x128 (![1] : Fin 1 → Fin S1x128.rank)
  bcast_S1x128_S400000x128_0_1 : S1x128.BroadcastsInDim S400000x128 (![0, 1] : Fin 2 → Fin S400000x128.rank)
  concatenates_S400000x128_S400000x1_S400000x129_d1 : Shape.Concatenates [S400000x128, S400000x1] S400000x129 1
  bcast_S_S200000x129 : S_.BroadcastsInDim S200000x129 (![] : Fin 0 → Fin S200000x129.rank)
  bcast_S1x128_S200000x128_0_1 : S1x128.BroadcastsInDim S200000x128 (![0, 1] : Fin 2 → Fin S200000x128.rank)
  bcast_S_S200000x128 : S_.BroadcastsInDim S200000x128 (![] : Fin 0 → Fin S200000x128.rank)
  gather_S200000x128_S1600000x1_S1600000x128_1_0_n_n_0_1_1128_wf : GatherDims.WF S200000x128 S1600000x1 S1600000x128 [1] [0] [] [0] [] 1 ![1, 128]
  scatter_S400000x128_S1600000x1_S1600000x128_1_0_0_1_wf : ScatterDims.WF S400000x128 S1600000x1 S1600000x128 [1] [0] [0] 1
  dot_S400000x128_S128x128_S400000x128_1_0_0_1_n_n_wf : DotDims.WF S400000x128 S128x128 S400000x128 [1] [0] [0] [1] [] []
  gather_S400000x129_S1600000x1_S1600000x129_1_0_n_n_0_1_1129_wf : GatherDims.WF S400000x129 S1600000x1 S1600000x129 [1] [0] [] [0] [] 1 ![1, 129]
  scatter_S200000x129_S1600000x1_S1600000x129_1_0_0_1_wf : ScatterDims.WF S200000x129 S1600000x1 S1600000x129 [1] [0] [0] 1
  dot_S200000x129_S129x128_S200000x128_1_0_0_1_n_n_wf : DotDims.WF S200000x129 S129x128 S200000x128 [1] [0] [0] [1] [] []

variable [Facts₀]

def gather_S200000x128_S1600000x1_S1600000x128_1_0_n_n_0_1_1128 : GatherDims S200000x128 S1600000x1 S1600000x128 where
  offsetDims := [1]
  collapsedSliceDims := [0]
  operandBatchingDims := []
  startIndicesBatchingDims := []
  startIndexMap := [0]
  indexVectorDim := 1
  sliceSizes := ![1, 128]
  wf := gather_S200000x128_S1600000x1_S1600000x128_1_0_n_n_0_1_1128_wf
def scatter_S400000x128_S1600000x1_S1600000x128_1_0_0_1 : ScatterDims S400000x128 S1600000x1 S1600000x128 where
  updateWindowDims := [1]
  insertedWindowDims := [0]
  scatterDimsToOperandDims := [0]
  indexVectorDim := 1
  wf := scatter_S400000x128_S1600000x1_S1600000x128_1_0_0_1_wf
def dot_S400000x128_S128x128_S400000x128_1_0_0_1_n_n : DotDims S400000x128 S128x128 S400000x128 where
  lhsContracting := [1]
  rhsContracting := [0]
  lhsNonContracting := [0]
  rhsNonContracting := [1]
  lhsBatch := []
  rhsBatch := []
  wf := dot_S400000x128_S128x128_S400000x128_1_0_0_1_n_n_wf
def gather_S400000x129_S1600000x1_S1600000x129_1_0_n_n_0_1_1129 : GatherDims S400000x129 S1600000x1 S1600000x129 where
  offsetDims := [1]
  collapsedSliceDims := [0]
  operandBatchingDims := []
  startIndicesBatchingDims := []
  startIndexMap := [0]
  indexVectorDim := 1
  sliceSizes := ![1, 129]
  wf := gather_S400000x129_S1600000x1_S1600000x129_1_0_n_n_0_1_1129_wf
def scatter_S200000x129_S1600000x1_S1600000x129_1_0_0_1 : ScatterDims S200000x129 S1600000x1 S1600000x129 where
  updateWindowDims := [1]
  insertedWindowDims := [0]
  scatterDimsToOperandDims := [0]
  indexVectorDim := 1
  wf := scatter_S200000x129_S1600000x1_S1600000x129_1_0_0_1_wf
def dot_S200000x129_S129x128_S200000x128_1_0_0_1_n_n : DotDims S200000x129 S129x128 S200000x128 where
  lhsContracting := [1]
  rhsContracting := [0]
  lhsNonContracting := [0]
  rhsNonContracting := [1]
  lhsBatch := []
  rhsBatch := []
  wf := dot_S200000x129_S129x128_S200000x128_1_0_0_1_n_n_wf

class Facts : Prop extends Facts₀ where

variable [Facts]
-- ==== Proof.KernelRun.lean ====
/-
  The idealized kernel program's run with its result named.  @main is four segments: the host operations up to the
  first call, the first call, the host operations up to the second call, the second call.  The buffer contents at
  each boundary are a fold from the launch memory; at the end of the last segment every unscoped buffer, the result
  among them, holds the last fold's value.  So every weakly fair execution terminates with the result buffer at that
  fold's value and with the eight argument arrays as launched.
-/
import proofs.«104024_j24507083391230_2_alg».proof.Proof.Gen.KernelIdeal.Frame

set_option maxRecDepth 16384

noncomputable section

namespace Cert.KernelIdeal.RunValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the value the
    last segment boundary's fold gives it and every argument array as launched. -/
theorem run_result : θ_run defs (onTc (τ := τ) (main (F := F))) ⟨m, fun _ => 0, ρ⟩ (fun r => ∀ c : Dev nD,
      r.2.mem ((c.tc : Thread nD τ).loc main_v35) = W4 m ρ c (Proc.devRef .tc main_v35)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v35 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩)

end Cert.KernelIdeal.RunValue

end
-- ==== Proof.HostStretch.lean ====
/-
  The host operations of the idealized kernel program around its two calls, read back as pure functions.
  Before the first call the program gathers the literal rows named by one endpoint of every edge (a negative index
  wrapped once by the table's length, as jnp does) and sums them onto the clause named by the other endpoint; it also
  reshapes the first bias to a row.  Between the calls it does the same twice in the other direction — once for the
  128 columns the first call produced and once for the single clause-feature column — and cuts the second weight
  matrix into its first 128 rows and its last row, and reshapes the second bias to a row.
  Each lemma says what ONE buffer holds after a stretch, from ANY contents `W` before it.
-/
import proofs.«104024_j24507083391230_2_alg».proof.Proof.Gen.KernelIdeal.Launch
import Idealize.ShloMosaic.Lib.StableHlo.Run

noncomputable section

namespace Cert.KernelIdeal.HostValue

open Idealize.ShloMosaic Idealize.ShloMosaic.TcCoe Idealize.SL.Sem Idealize.ShloMosaic.StableHlo
open Cert.KernelIdeal Cert.KernelIdeal.Gen

variable {F : FTy → Type} [FloatOps F]

/-- An index vector as a column of row indices, a negative entry wrapped once by the table's length `n`. -/
def wrapCol (n : BitVec 32) (i : (⟨S1600000, .i32⟩ : BufTy).Contents (Elt F)) : (⟨S1600000x1, .i32⟩ : BufTy).Contents (Elt F) :=
  broadcastInDim S1600000x1 ![0] bcast_S1600000_S1600000x1_0
    (select (cmpi .slt i (broadcastInDim S1600000 ![] bcast_S_S1600000 (constantI S_ 32 0#32)))
      (addi i (broadcastInDim S1600000 ![] bcast_S_S1600000 (constantI S_ 32 n))) i)

/-- An index vector as a column, as it is. -/
def col (i : (⟨S1600000, .i32⟩ : BufTy).Contents (Elt F)) : (⟨S1600000x1, .i32⟩ : BufTy).Contents (Elt F) :=
  broadcastInDim S1600000x1 ![0] bcast_S1600000_S1600000x1_0 i

variable (W : Valuation τ sig (Elt F))

/-! ## Before the first call -/

/-- The clause sums of literal rows. -/
theorem stretch0_v9 : StableHlo.after hostOps0 W (Proc.devRef .tc main_v9)
    = Host.scatterAdd scatter_S400000x128_S1600000x1_S1600000x128_1_0_0_1
        (broadcastInDim S400000x128 ![] bcast_S_S400000x128 (constant S_ .f32 0x00000000#32))
        (col (W (Proc.devRef .tc main_arg7)))
        (Host.gather gather_S200000x128_S1600000x1_S1600000x128_1_0_n_n_0_1_1128 (W (Proc.devRef .tc main_arg0))
          (wrapCol 200000#32 (W (Proc.devRef .tc main_arg6)))) := by
  after_results_simp <;> rfl

/-- The first bias as a row. -/
theorem stretch0_v10 : StableHlo.after hostOps0 W (Proc.devRef .tc main_v10)
    = shapeCast S1x128 (W (Proc.devRef .tc main_arg3)) shapeCasts_S128_S1x128 := by
  after_results_simp <;> rfl

theorem stretch0_arg1 : StableHlo.after hostOps0 W (Proc.devRef .tc main_arg1) = W (Proc.devRef .tc main_arg1) := by after_results_simp <;> rfl
theorem stretch0_arg2 : StableHlo.after hostOps0 W (Proc.devRef .tc main_arg2) = W (Proc.devRef .tc main_arg2) := by after_results_simp <;> rfl
theorem stretch0_arg4 : StableHlo.after hostOps0 W (Proc.devRef .tc main_arg4) = W (Proc.devRef .tc main_arg4) := by after_results_simp <;> rfl
theorem stretch0_arg5 : StableHlo.after hostOps0 W (Proc.devRef .tc main_arg5) = W (Proc.devRef .tc main_arg5) := by after_results_simp <;> rfl
theorem stretch0_arg6 : StableHlo.after hostOps0 W (Proc.devRef .tc main_arg6) = W (Proc.devRef .tc main_arg6) := by after_results_simp <;> rfl
theorem stretch0_arg7 : StableHlo.after hostOps0 W (Proc.devRef .tc main_arg7) = W (Proc.devRef .tc main_arg7) := by after_results_simp <;> rfl

/-! ## Between the calls -/

/-- The literal sums of the first call's rows. -/
theorem stretch1_v21 : StableHlo.after hostOps1 W (Proc.devRef .tc main_v21)
    = Host.scatterAdd scatter_S200000x128_S1600000x1_S1600000x128_1_0_0_1
        (broadcastInDim S200000x128 ![] bcast_S_S200000x128 (constant S_ .f32 0x00000000#32))
        (col (W (Proc.devRef .tc main_arg6)))
        (Host.gather gather_S400000x128_S1600000x1_S1600000x128_1_0_n_n_0_1_1128 (W (Proc.devRef .tc main_v11))
          (wrapCol 400000#32 (W (Proc.devRef .tc main_arg7)))) := by
  after_results_simp <;> rfl

/-- The literal sums of the clause-feature column. -/
theorem stretch1_v31 : StableHlo.after hostOps1 W (Proc.devRef .tc main_v31)
    = Host.scatterAdd scatter_S200000x1_S1600000x1_S1600000x1_1_0_0_1
        (broadcastInDim S200000x1 ![] bcast_S_S200000x1 (constant S_ .f32 0x00000000#32))
        (col (W (Proc.devRef .tc main_arg6)))
        (Host.gather gather_S400000x1_S1600000x1_S1600000x1_1_0_n_n_0_1_11 (W (Proc.devRef .tc main_arg1))
          (wrapCol 400000#32 (W (Proc.devRef .tc main_arg7)))) := by
  after_results_simp <;> rfl

/-- The second weight matrix's first 128 rows. -/
theorem stretch1_v32 : StableHlo.after hostOps1 W (Proc.devRef .tc main_v32)
    = extractStridedSlice S128x128 ![0, 0] (W (Proc.devRef .tc main_arg4)) slices_S129x128_S128x128_0_0 := by
  after_results_simp <;> rfl

/-- The second weight matrix's last row. -/
theorem stretch1_v33 : StableHlo.after hostOps1 W (Proc.devRef .tc main_v33)
    = extractStridedSlice S1x128 ![128, 0] (W (Proc.devRef .tc main_arg4)) slices_S129x128_S1x128_128_0 := by
  after_results_simp <;> rfl

/-- The second bias as a row. -/
theorem stretch1_v34 : StableHlo.after hostOps1 W (Proc.devRef .tc main_v34)
    = shapeCast S1x128 (W (Proc.devRef .tc main_arg5)) shapeCasts_S128_S1x128 := by
  after_results_simp <;> rfl

end Cert.KernelIdeal.HostValue

end
-- ==== Proof.LibGatherTable.lean ====
/-
  A TABLE GATHERED BY ONE INDEX PER ENTRY, READ AT AN INDEX.  `x[idx]` of a table `x : [N, C]` at indices
  `idx : [E, 1]` is the array `[E, C]` whose row `e` is the table's row `idx[e, 0]`; the transposed form takes the
  columns of a table `x : [C, N]` into an array `[C, E]`.  In both the index is read as a signed integer and clamped
  into `[0, N − 1]`: a negative index reads row 0, an index past the end reads the last row.  The extents are
  arbitrary naturals and the elements of any type; nothing here depends on a program.
-/
import Idealize.ShloMosaic.PureOps.ShapeOps
import Idealize.ShloMosaic.Lib.ValueIdx

noncomputable section

namespace Idealize.ShloMosaic.GatherTable

open Idealize.ShloMosaic Idealize.ShloMosaic.ValueIdx

variable {α : Type}

/-- The position in a table of `N` entries that an index word names: read as a signed integer, a negative value
    goes to 0 and a value past the end to `N − 1`. -/
def clampIdx {w : Nat} (N : Nat) (hN : 0 < N) (i : BitVec w) : Fin N :=
  ⟨min i.toInt.toNat (N - 1), by omega⟩

/-! ## Rows of `[N, C]` -/

/-- The dimension numbers of a row gather: the index vector (length one, on the indices' axis 1) names operand axis 0,
    which is collapsed; the result's axis 1 is the offset axis and runs along operand axis 1, whole. -/
abbrev rowsDims (N C E : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(e, c)`: the table at the row `idx[e, 0]` (signed, clamped) and the column `c`. -/
theorem gather_rows_apply {N C E w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (rowsDims N C E wf) x idx (ix2 e c) = x (ix2 (clampIdx N hN (idx (ix2 e (0 : Fin 1)))) c) := by
  unfold Host.gather
  congr 1
  funext a
  refine Fin.ext ?_
  match a with
  | ⟨0, _⟩ =>
    show (rowsDims N C E wf).start (ix2 e c) idx 0 + (rowsDims N C E wf).batchCoord (ix2 e c) 0
      + (rowsDims N C E wf).offCoord (ix2 e c) 0 = min (idx (ix2 e (0 : Fin 1))).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N C E wf).startIndexMap from List.mem_singleton.mpr rfl)]
    have hsi : (rowsDims N C E wf).siIdx (ix2 e c) ⟨List.idxOf (0 : Fin 2) (rowsDims N C E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowsDims N C E wf).start (ix2 e c) idx 1 + (rowsDims N C E wf).batchCoord (ix2 e c) 1
      + (rowsDims N C E wf).offCoord (ix2 e c) 1 = c.val
    have hst : (rowsDims N C E wf).start (ix2 e c) idx 1 = 0 := by
      unfold GatherDims.start
      rw [dif_neg]
      exact (show (1 : Fin 2) ∉ ([0] : List (Fin 2)) by decide)
    have hoff : (rowsDims N C E wf).offCoord (ix2 e c) 1 = c.val := by
      unfold GatherDims.offCoord
      rw [dif_pos]
      · rfl
      · exact (show (1 : Fin 2) ∈ (List.finRange 2).filter (fun a => a ∉ ([0] : List (Fin 2))) by decide)
    rw [GatherDims.batchCoord_eq_zero _ _ _ List.not_mem_nil, hst, hoff]
    omega

/-! ## Columns of `[C, N]` -/

/-- The dimension numbers of a column gather: the index vector names operand axis 1, which is collapsed; the result's
    axis 0 is the offset axis and runs along operand axis 0, whole. -/
abbrev colsDims (N C E : Nat)
    (wf : GatherDims.WF ⟨2, ![C, N]⟩ ⟨2, ![E, 1]⟩ ⟨2, ![C, E]⟩ [0] [1] [] [1] [] 1 ![C, 1]) :
    GatherDims ⟨2, ![C, N]⟩ ⟨2, ![E, 1]⟩ ⟨2, ![C, E]⟩ where
  offsetDims := [0]
  collapsedSliceDims := [1]
  operandBatchingDims := []
  startIndicesBatchingDims := []
  startIndexMap := [1]
  indexVectorDim := 1
  sliceSizes := ![C, 1]
  wf := wf

/-- THE COLUMN GATHER READ AT `(c, e)`: the table at the row `c` and the column `idx[e, 0]` (signed, clamped). -/
theorem gather_cols_apply {N C E w : Nat} (hN : 0 < N)
    (wf : GatherDims.WF ⟨2, ![C, N]⟩ ⟨2, ![E, 1]⟩ ⟨2, ![C, E]⟩ [0] [1] [] [1] [] 1 ![C, 1])
    (x : (⟨2, ![C, N]⟩ : Shape).Idx → α) (idx : IVec ⟨2, ![E, 1]⟩ w) (c : Fin C) (e : Fin E) :
    Host.gather (colsDims N C E wf) x idx (ix2 c e) = x (ix2 c (clampIdx N hN (idx (ix2 e (0 : Fin 1))))) := by
  unfold Host.gather
  congr 1
  funext a
  refine Fin.ext ?_
  match a with
  | ⟨0, _⟩ =>
    show (colsDims N C E wf).start (ix2 c e) idx 0 + (colsDims N C E wf).batchCoord (ix2 c e) 0
      + (colsDims N C E wf).offCoord (ix2 c e) 0 = c.val
    have hst : (colsDims N C E wf).start (ix2 c e) idx 0 = 0 := by
      unfold GatherDims.start
      rw [dif_neg]
      exact (show (0 : Fin 2) ∉ ([1] : List (Fin 2)) by decide)
    have hoff : (colsDims N C E wf).offCoord (ix2 c e) 0 = c.val := by
      unfold GatherDims.offCoord
      rw [dif_pos]
      · rfl
      · exact (show (0 : Fin 2) ∈ (List.finRange 2).filter (fun a => a ∉ ([1] : List (Fin 2))) by decide)
    rw [GatherDims.batchCoord_eq_zero _ _ _ List.not_mem_nil, hst, hoff]
    omega
  | ⟨1, _⟩ =>
    show (colsDims N C E wf).start (ix2 c e) idx 1 + (colsDims N C E wf).batchCoord (ix2 c e) 1
      + (colsDims N C E wf).offCoord (ix2 c e) 1 = min (idx (ix2 e (0 : Fin 1))).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (colsDims N C E wf).startIndexMap from List.mem_singleton.mpr rfl)]
    have hsi : (colsDims N C E wf).siIdx (ix2 c e) ⟨List.idxOf (1 : Fin 2) (colsDims N C E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl

end Idealize.ShloMosaic.GatherTable

end
-- ==== Proof.LibScatterRows.lean ====
/-
  A ROW SCATTER-ADD READ AT AN INDEX.  What `x.at[idx].add(u)` of a table `x : [N, C]`, one row index per update row
  `idx : [E, 1]` and update rows `u : [E, C]` means on the extended reals: element `(n, c)` of the result is
  `x[n, c]` plus the sum of `u[e, c]` over the update rows `e` whose row index, read as a signed integer, is `n`.
  An update row whose index is negative or at least `N` lands nowhere and is dropped.  The extents are arbitrary
  naturals; nothing here depends on a program.
-/
import Idealize.ShloMosaic.PureOps.Ideal
import Idealize.ShloMosaic.Lib.ValueIdx

noncomputable section

open scoped BigOperators

namespace Idealize.ShloMosaic.ScatterRows

open Idealize.ShloMosaic Idealize.ShloMosaic.ValueIdx

/-- The dimension numbers of a row scatter: the index vector (of length one, on the indices' axis 1) names operand
    axis 0, which is inserted; the updates' axis 1 is the window axis and runs along operand axis 1. -/
abbrev rowDims (N C E : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- Where update element `(e, c)` reads its row index: `(e, 0)`. -/
abbrev rowIdx {E C : Nat} (j : (⟨2, ![E, C]⟩ : Shape).Idx) : (⟨2, ![E, 1]⟩ : Shape).Idx :=
  ix2 (⟨(j 0).val, idx2_lt0 j⟩ : Fin E) (0 : Fin 1)

section
variable {N C E w : Nat} (wf : ScatterDims.WF ⟨2, ![N, C]⟩ ⟨2, ![E, 1]⟩ ⟨2, ![E, C]⟩ [1] [0] [0] 1)

/-- On the row axis the window starts at the row index, read signed. -/
theorem start_row (j : (⟨2, ![E, C]⟩ : Shape).Idx) (idx : IVec ⟨2, ![E, 1]⟩ w) :
    (rowDims N C E wf).start j idx 0 = (idx (rowIdx j)).toInt := by
  unfold ScatterDims.start
  rw [dif_pos (show (0 : Fin 2) ∈ (rowDims N C E wf).scatterDimsToOperandDims from List.mem_singleton.mpr rfl)]
  have hsi : (rowDims N C E wf).siIdx j ⟨List.idxOf (0 : Fin 2) (rowDims N C E wf).scatterDimsToOperandDims,
      List.idxOf_lt_length_iff.2 (List.mem_singleton.mpr rfl)⟩ = rowIdx j := by
    funext b; refine Fin.ext ?_
    match b with
    | ⟨0, _⟩ => rfl
    | ⟨1, _⟩ => rfl
  rw [hsi]

/-- On the column axis it starts at zero. -/
theorem start_col (j : (⟨2, ![E, C]⟩ : Shape).Idx) (idx : IVec ⟨2, ![E, 1]⟩ w) :
    (rowDims N C E wf).start j idx 1 = 0 := by
  unfold ScatterDims.start
  rw [dif_neg (show (1 : Fin 2) ∉ ([0] : List (Fin 2)) by decide)]

/-- The window has no extent along the rows … -/
theorem window_row (j : (⟨2, ![E, C]⟩ : Shape).Idx) : (rowDims N C E wf).window j 0 = 0 := by
  unfold ScatterDims.window
  rw [dif_neg]
  exact (show (0 : Fin 2) ∉ (List.finRange 2).filter (fun a => a ∉ ([0] : List (Fin 2))) by decide)

/-- … and along the columns it is the update's column. -/
theorem window_col (j : (⟨2, ![E, C]⟩ : Shape).Idx) : (rowDims N C E wf).window j 1 = (j 1).val := by
  unfold ScatterDims.window
  rw [dif_pos]
  · rfl
  · exact (show (1 : Fin 2) ∈ (List.finRange 2).filter (fun a => a ∉ ([0] : List (Fin 2))) by decide)

/-- An update element lands on operand element `i` exactly when its row index, read signed, is `i`'s row and its
    column is `i`'s column. -/
theorem resultIdx?_eq_some_iff (j : (⟨2, ![E, C]⟩ : Shape).Idx) (idx : IVec ⟨2, ![E, 1]⟩ w)
    (i : (⟨2, ![N, C]⟩ : Shape).Idx) :
    (rowDims N C E wf).resultIdx? j idx = some i ↔
      (idx (rowIdx j)).toInt = ((i 0).val : ℤ) ∧ (j 1).val = (i 1).val := by
  have hi0 : (i 0).val < N := idx2_lt0 i
  have hi1 : (i 1).val < C := idx2_lt1 i
  constructor
  · intro hsome
    unfold ScatterDims.resultIdx? at hsome
    split at hsome
    · rename_i h
      have e := Option.some.inj hsome
      have e0 := congrArg Fin.val (congrFun e 0)
      have e1 := congrArg Fin.val (congrFun e 1)
      have h0 := h 0
      have h1 := h 1
      simp only [start_row, start_col, window_row, window_col] at e0 e1 h0 h1
      constructor <;> omega
    · exact absurd hsome (by simp)
  · rintro ⟨e0, e1⟩
    have h : ∀ a, 0 ≤ (rowDims N C E wf).start j idx a + (rowDims N C E wf).window j a ∧
        (rowDims N C E wf).start j idx a + (rowDims N C E wf).window j a < (⟨2, ![N, C]⟩ : Shape).size a := by
      intro a
      match a with
      | ⟨0, _⟩ =>
        show 0 ≤ (rowDims N C E wf).start j idx 0 + (rowDims N C E wf).window j 0 ∧
          (rowDims N C E wf).start j idx 0 + (rowDims N C E wf).window j 0 < (N : ℤ)
        rw [start_row, window_row]; omega
      | ⟨1, _⟩ =>
        show 0 ≤ (rowDims N C E wf).start j idx 1 + (rowDims N C E wf).window j 1 ∧
          (rowDims N C E wf).start j idx 1 + (rowDims N C E wf).window j 1 < (C : ℤ)
        rw [start_col, window_col]; omega
    unfold ScatterDims.resultIdx?
    rw [dif_pos h]
    congr 1
    funext a
    refine Fin.ext ?_
    match a with
    | ⟨0, _⟩ =>
      show ((rowDims N C E wf).start j idx 0 + (rowDims N C E wf).window j 0).toNat = (i 0).val
      rw [start_row, window_row]; omega
    | ⟨1, _⟩ =>
      show ((rowDims N C E wf).start j idx 1 + (rowDims N C E wf).window j 1).toNat = (i 1).val
      rw [start_col, window_col]; omega

/-- THE ROW SCATTER-ADD READ AT `(n, c)`, on the extended reals: the operand's element plus the sum, over the update
    rows `e` whose row index read signed is `n`, of the update's element `(e, c)`.  The update elements that land on
    `(n, c)` are exactly the `(e, c)` with such an `e`, one for each. -/
theorem scatterAdd_rows_apply {φ : FTy} (x : FVec Ideal ⟨2, ![N, C]⟩ φ) (idx : IVec ⟨2, ![E, 1]⟩ w)
    (upd : FVec Ideal ⟨2, ![E, C]⟩ φ) (n : Fin N) (c : Fin C) :
    Host.scatterAdd (rowDims N C E wf) x idx upd (ix2 n c) =
      x (ix2 n c) + ∑ e ∈ Finset.univ.filter (fun e : Fin E => (idx (ix2 e (0 : Fin 1))).toInt = (n.val : ℤ)),
        upd (ix2 e c) := by
  show Ideal.hostScatterAdd (rowDims N C E wf) x idx upd (ix2 n c) = _
  unfold Ideal.hostScatterAdd
  refine congrArg (x (ix2 n c) + ·) ?_
  have key : ∀ j : (⟨2, ![E, C]⟩ : Shape).Idx, (rowDims N C E wf).resultIdx? j idx = some (ix2 n c) ↔
      (idx (rowIdx j)).toInt = (n.val : ℤ) ∧ (j 1).val = c.val :=
    fun j => resultIdx?_eq_some_iff wf j idx (ix2 n c)
  have back : ∀ j : (⟨2, ![E, C]⟩ : Shape).Idx, (j 1).val = c.val →
      ix2 (⟨(j 0).val, idx2_lt0 j⟩ : Fin E) c = j := by
    intro j hj
    have hc : j 1 = c := Fin.ext hj
    rw [← hc]
    exact (eq_ix2 j).symm
  refine Finset.sum_bij' (fun j _ => (⟨(j 0).val, idx2_lt0 j⟩ : Fin E)) (fun e _ => ix2 e c) ?_ ?_ ?_ ?_ ?_
  · intro j hj
    rw [Finset.mem_filter] at hj ⊢
    exact ⟨Finset.mem_univ _, ((key j).mp hj.2).1⟩
  · intro e he
    rw [Finset.mem_filter] at he ⊢
    exact ⟨Finset.mem_univ _, (key (ix2 e c)).mpr ⟨he.2, rfl⟩⟩
  · intro j hj
    rw [Finset.mem_filter] at hj
    exact back j ((key j).mp hj.2).2
  · intro e _
    rfl
  · intro j hj
    rw [Finset.mem_filter] at hj
    exact congrArg upd (back j ((key j).mp hj.2).2).symm

end

end Idealize.ShloMosaic.ScatterRows

end
-- ==== Proof.LibHostDot.lean ====
/-
  A plain matrix product on the host, read at an index.  `jnp`'s `A @ B` of an m×k by a k×n matrix lowers to a
  `dot_general` contracting the left operand's axis 1 with the right operand's axis 0; over the extended reals its entry
  (r, c) is the sum over the contracted coordinate i of `A (r, i) · B (i, c)`, whatever the precision and schedule.
  The extents are arbitrary naturals; nothing here depends on a program.  The second form takes the record by name
  together with the equation that spells its fields, for a record a program declares as a definition.
-/
import Idealize.ShloMosaic.Lib.Pipeline.Value
import Idealize.ShloMosaic.Lib.ValueIdx
import Idealize.ShloMosaic.PureOps.Ideal.Laws

noncomputable section

open scoped BigOperators

namespace Cert.LibHostDot

open Idealize.ShloMosaic Idealize.ShloMosaic.ValueIdx

/-- The host's product of an m×k by a k×n matrix, read at (r, c): the sum over the contracted coordinate. -/
theorem dotGeneral_plain_apply {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (r : Fin m) (c : Fin n) :
    Host.dotGeneral (⟨[1], [0], [0], [1], [], [], w⟩ : DotDims _ _ _) prec A B (ix2 r c)
      = ∑ i : Fin k, A (ix2 r i) * B (ix2 i c) := by
  simp only [Host.dotGeneral]
  rw [Ideal.dotGeneral_apply,
    ← Equiv.sum_comp (contrEquiv1 (⟨[1], [0], [0], [1], [], [], w⟩ : DotDims _ _ _) k rfl rfl).symm]
  refine Finset.sum_congr rfl fun i _ => ?_
  have c2 := contrEquiv1_symm_val
    (⟨[1], [0], [0], [1], [], [], w⟩ : DotDims ⟨2, ![m, k]⟩ ⟨2, ![k, n]⟩ ⟨2, ![m, n]⟩) k rfl rfl i
  have l2 : (⟨[1], [0], [0], [1], [], [], w⟩ : DotDims ⟨2, ![m, k]⟩ ⟨2, ![k, n]⟩ ⟨2, ![m, n]⟩).lhsIdx (ix2 r c)
      ((contrEquiv1 _ k rfl rfl).symm i) = ix2 r i := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 r c)
      ((contrEquiv1 _ k rfl rfl).symm i) = ix2 i c := by
    funext ax; apply Fin.ext
    match ax with
    | ⟨0, _⟩ => simp [DotDims.rhsIdx]; exact c2
    | ⟨1, _⟩ => simp [DotDims.rhsIdx]; rfl
  rw [l2, r2]

/-- The same for a record given by name, with the equation that spells it. -/
theorem dotGeneral_plain_apply' {m k n : ℕ} {φ₁ φ₂ : FTy}
    (d : DotDims ⟨2, ![m, k]⟩ ⟨2, ![k, n]⟩ ⟨2, ![m, n]⟩)
    (w : DotDims.WF ⟨2, ![m, k]⟩ ⟨2, ![k, n]⟩ ⟨2, ![m, n]⟩ [1] [0] [0] [1] [] [])
    (hd : d = ⟨[1], [0], [0], [1], [], [], w⟩)
    (prec : Option ContractPrecision) (A : FVec Ideal ⟨2, ![m, k]⟩ φ₁) (B : FVec Ideal ⟨2, ![k, n]⟩ φ₂)
    (r : Fin m) (c : Fin n) :
    Host.dotGeneral d prec A B (ix2 r c) = ∑ i : Fin k, A (ix2 r i) * B (ix2 i c) := by
  subst hd
  exact dotGeneral_plain_apply w prec A B r c

end Cert.LibHostDot

end
-- ==== Proof.LibRowOps.lean ====
/-
  Three shape operations read at an index, for rank-2 vectors with a unit leading axis and for a plain matrix
  product: the cast of a length-`b` vector to a row [1, b], the broadcast of a row [1, b] down the rows of [a, b],
  and the product of an [m, k] by a [k, n] matrix accumulated into the zero splat, over the extended reals.
-/
import Idealize.ShloMosaic.Lib.Pipeline.Value
import Idealize.ShloMosaic.Lib.ValueIdx
import Idealize.ShloMosaic.PureOps.Ideal.Laws

noncomputable section

namespace Cert.KernelBody

open Idealize.ShloMosaic Idealize.ShloMosaic.ValueIdx

variable {α : Type} {a b : ℕ}

/-- Entry `(0, k)` of the row cast of a vector is the vector's entry `k`: both sit at row-major position `k`. -/
theorem shapeCast_row_apply (x : (⟨1, ![b]⟩ : Shape).Idx → α) (h : (⟨1, ![b]⟩ : Shape).ShapeCasts ⟨2, ![1, b]⟩) (k : Fin b) :
    shapeCast ⟨2, ![1, b]⟩ x h (ix2 (0 : Fin 1) k) = x (ix1 k) :=
  shapeCast_apply x h (ix2 (0 : Fin 1) k) (ix1 k) (by
    rw [Shape.rowMajor_val_one, Shape.rowMajor_val_two]
    show k.val = 0 * b + k.val
    omega)

/-- Entry `(n, k)` of a row broadcast down the rows is the row's entry `(0, k)`. -/
theorem broadcastTo_row_apply (x : (⟨2, ![1, b]⟩ : Shape).Idx → α) (h : (⟨2, ![1, b]⟩ : Shape).Broadcasts ⟨2, ![a, b]⟩)
    (n : Fin a) (k : Fin b) : broadcastTo ⟨2, ![a, b]⟩ x h (ix2 n k) = x (ix2 (0 : Fin 1) k) :=
  broadcastTo_apply x h (ix2 n k) (ix2 (0 : Fin 1) k) (fun c => by
    match c with
    | ⟨0, _⟩ => rfl
    | ⟨1, _⟩ =>
      show k.val = if b = 1 then 0 else k.val
      have := k.isLt
      split <;> omega)

/-- The product of an m×k by a k×n matrix (contracting the left operand's axis 1 with the right operand's axis 0)
    accumulated into the zero splat, read at `(r, c)`, is the sum over the contracted coordinate of the products of
    the entries. `w` is the record's well-formedness, which a program states. -/
theorem matmul_plain_zero_apply {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (r : Fin m) (c : Fin n) :
    matmul (⟨[1], [0], [0], [1], [], [], w⟩ : DotDims _ _ _) prec A B
        (constant (F := Ideal) ⟨2, ![m, n]⟩ .f32 0x00000000#32) (ix2 r c)
      = ∑ i : Fin k, A (ix2 r i) * B (ix2 i c) := by
  show FloatOps.matmul _ prec A B (constant (F := Ideal) ⟨2, ![m, n]⟩ .f32 0x00000000#32) (ix2 r c) = _
  rw [Ideal.matmul_constant_zero_apply,
    ← Equiv.sum_comp (contrEquiv1 (⟨[1], [0], [0], [1], [], [], w⟩ : DotDims _ _ _) k rfl rfl).symm]
  refine Finset.sum_congr rfl fun i _ => ?_
  have c2 := contrEquiv1_symm_val
    (⟨[1], [0], [0], [1], [], [], w⟩ : DotDims ⟨2, ![m, k]⟩ ⟨2, ![k, n]⟩ ⟨2, ![m, n]⟩) k rfl rfl i
  have l2 : (⟨[1], [0], [0], [1], [], [], w⟩ : DotDims ⟨2, ![m, k]⟩ ⟨2, ![k, n]⟩ ⟨2, ![m, n]⟩).lhsIdx (ix2 r c)
      ((contrEquiv1 _ k rfl rfl).symm i) = ix2 r i := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 r c)
      ((contrEquiv1 _ k rfl rfl).symm i) = ix2 i c := by
    funext ax; apply Fin.ext
    match ax with
    | ⟨0, _⟩ => simp [DotDims.rhsIdx]; exact c2
    | ⟨1, _⟩ => simp [DotDims.rhsIdx]; rfl
  rw [l2, r2]

end Cert.KernelBody

end
-- ==== Proof.LibHostRows.lean ====
import Idealize.ShloMosaic.Lib.Pipeline.Value
import Idealize.ShloMosaic.Lib.ValueIdx
import Idealize.ShloMosaic.Lib.IdealHost
import Idealize.ShloMosaic.PureOps.Ideal.Laws

/-!
# A vector broadcast down the rows, and a column sum, read at an index

`jnp` broadcasts a vector of `C` entries against an `R × C` matrix in two steps, `[C] → [1, C] → [R, C]`;
read at `(r, c)` the result is the vector's entry `c` (`rowBroadcast_apply`).  A host sum of an `R × C`
matrix over its rows, read at `c` over the extended reals, is the initial value plus the sum over `r` of
the entries `(r, c)` (`colSum_apply`).  The extents are arbitrary naturals.
-/

noncomputable section

open scoped BigOperators

namespace Cert.LibHostRows

open Idealize.ShloMosaic Idealize.ShloMosaic.ValueIdx

/-- A vector broadcast down the rows of a matrix, read at an index: the vector at the column. -/
theorem rowBroadcast_apply {α : Type} {R C : ℕ}
    (h1 : (⟨1, ![C]⟩ : Shape).BroadcastsInDim ⟨2, ![1, C]⟩ ![1])
    (h2 : (⟨2, ![1, C]⟩ : Shape).BroadcastsInDim ⟨2, ![R, C]⟩ ![0, 1])
    (y : (⟨1, ![C]⟩ : Shape).Idx → α) (i : (⟨2, ![R, C]⟩ : Shape).Idx) :
    broadcastInDim ⟨2, ![R, C]⟩ ![0, 1] h2 (broadcastInDim ⟨2, ![1, C]⟩ ![1] h1 y) i = y (ix1 (i 1)) := by
  have hc : (i 1).val < C := (i 1).isLt
  rw [broadcastInDim_apply _ h2 _ i (ix2 ⟨0, Nat.one_pos⟩ (i 1)) (fun a => match a with
      | ⟨0, _⟩ => by show (0 : ℕ) = if (1 : ℕ) = 1 then 0 else (i 0).val; rw [if_pos rfl]
      | ⟨1, _⟩ => by
        show (i 1).val = if C = 1 then 0 else (i 1).val
        split
        · omega
        · rfl),
    broadcastInDim_apply _ h1 y _ (ix1 (i 1)) (fun a => match a with
      | ⟨0, _⟩ => by
        show (i 1).val = if C = 1 then 0 else (i 1).val
        split
        · omega
        · rfl)]

/-- The host's sum of a matrix over its rows, read at a column over the extended reals. -/
theorem colSum_apply {R C : ℕ} {φ : FTy} {u : Shape}
    (hr : (⟨2, ![R, C]⟩ : Shape).ReducesTo [0] ⟨1, ![C]⟩) (hR : (⟨2, ![R, C]⟩ : Shape).Reduces [0] ⟨1, ![C]⟩)
    (hu : 0 < u.numel) (X : FVec Ideal ⟨2, ![R, C]⟩ φ) (c : u.Idx → Ideal φ) (j : (⟨1, ![C]⟩ : Shape).Idx) :
    Host.reduceAdd X c hr hu j = c (Shape.Idx.first hu) + ∑ r : Fin R, X (ix2 r (j 0)) := by
  rw [hostReduceAdd_apply, Ideal.hostReduceAdd_single hr hR]
  refine congrArg (_ + ·) (Finset.sum_congr rfl fun k _ => ?_)
  exact congrArg X (funext fun a => Fin.ext (by match a with | ⟨0, _⟩ => rfl | ⟨1, _⟩ => rfl))

end Cert.LibHostRows

end
-- ==== Proof.LibDenseLayers.lean ====
/-
  Dense layers over the extended reals, as functions of whole arrays, and the host operations that compute them.
  The extents n, k, c are arbitrary naturals; nothing here depends on a program.

  * `mm x w` is the matrix product: entry (r, q) is the sum over j of x (r, j) · w (j, q).
  * `addBias x b` adds the vector b to every row of x; `biasRelu x b` is its positive part, max (x + b) 0.
  * `addBiasRow`, `biasReluRow` take the bias as a 1 × c row; the row that is the reshape of a vector acts as the
    vector does (`addBiasRow_cast`, `biasReluRow_cast`).

  On the host a matrix product is a `dot_general` contracting axis 1 of the left operand with axis 0 of the right
  (`hostDot_eq_mm`), a bias is broadcast in two steps [c] → [1, c] → [n, c] and added (`hostAddBias_eq`), and the
  positive part is a maximum with the zero splat (`hostBiasRelu_eq`, `zeroSplat_apply`).  Each lemma reads one of
  these at an index and finds the layer function there.  No law of the extended reals beyond the meaning of the
  operations is used: the sums keep their order and nothing is distributed.
-/
import Idealize.ShloMosaic.Lib.Pipeline.Value
import Idealize.ShloMosaic.Lib.ValueIdx
import Idealize.ShloMosaic.PureOps.Ideal.Laws
import proofs.«104024_j24507083391230_2_alg».proof.Proof.LibHostDot
import proofs.«104024_j24507083391230_2_alg».proof.Proof.LibRowOps
import proofs.«104024_j24507083391230_2_alg».proof.Proof.LibHostRows

noncomputable section

open scoped BigOperators

namespace Cert.Layers

open Idealize.ShloMosaic Idealize.ShloMosaic.ValueIdx

variable {n k c : ℕ}

/-- The matrix product of an n×k by a k×c matrix. -/
def mm (x : FVec Ideal ⟨2, ![n, k]⟩ .f32) (w : FVec Ideal ⟨2, ![k, c]⟩ .f32) : FVec Ideal ⟨2, ![n, c]⟩ .f32 :=
  fun i => ∑ j : Fin k, x (ix2 (i 0) j) * w (ix2 j (i 1))

/-- A vector added to every row of a matrix. -/
def addBias (x : FVec Ideal ⟨2, ![n, c]⟩ .f32) (b : FVec Ideal ⟨1, ![c]⟩ .f32) : FVec Ideal ⟨2, ![n, c]⟩ .f32 :=
  fun i => x i + b (ix1 (i 1))

/-- The positive part of a matrix plus a vector on every row. -/
def biasRelu (x : FVec Ideal ⟨2, ![n, c]⟩ .f32) (b : FVec Ideal ⟨1, ![c]⟩ .f32) : FVec Ideal ⟨2, ![n, c]⟩ .f32 :=
  fun i => max (x i + b (ix1 (i 1))) 0

theorem mm_apply (x : FVec Ideal ⟨2, ![n, k]⟩ .f32) (w : FVec Ideal ⟨2, ![k, c]⟩ .f32) (r : Fin n) (q : Fin c) :
    mm x w (ix2 r q) = ∑ j : Fin k, x (ix2 r j) * w (ix2 j q) := rfl

/-- The host's `dot_general` of two matrices, contracting the inner axis, is the matrix product. -/
theorem hostDot_eq_mm (d : DotDims ⟨2, ![n, k]⟩ ⟨2, ![k, c]⟩ ⟨2, ![n, c]⟩)
    (wf : DotDims.WF ⟨2, ![n, k]⟩ ⟨2, ![k, c]⟩ ⟨2, ![n, c]⟩ [1] [0] [0] [1] [] [])
    (hd : d = ⟨[1], [0], [0], [1], [], [], wf⟩) (prec : Option ContractPrecision)
    (x : FVec Ideal ⟨2, ![n, k]⟩ .f32) (w : FVec Ideal ⟨2, ![k, c]⟩ .f32) :
    Host.dotGeneral d prec x w = mm x w := by
  funext i
  rw [eq_ix2 i]
  exact Cert.LibHostDot.dotGeneral_plain_apply' d wf hd prec x w (i 0) (i 1)

/-- The zero splat broadcast from a scalar reads 0 everywhere. -/
theorem zeroSplat_apply {s : Shape} (h0 : (⟨0, ![]⟩ : Shape).BroadcastsInDim s ![]) (i : s.Idx) :
    broadcastInDim s ![] h0 (constant (F := Ideal) ⟨0, ![]⟩ .f32 0x00000000#32) i = 0 := by
  rw [broadcastInDim_apply ![] h0 _ i ix0 (fun a => a.elim0), constant_apply, Ideal.ofBits_zero_f32]

/-- The host's bias: the vector broadcast to a row and then down the rows, added to the matrix. -/
theorem hostAddBias_eq (h1 : (⟨1, ![c]⟩ : Shape).BroadcastsInDim ⟨2, ![1, c]⟩ ![1])
    (h2 : (⟨2, ![1, c]⟩ : Shape).BroadcastsInDim ⟨2, ![n, c]⟩ ![0, 1])
    (x : FVec Ideal ⟨2, ![n, c]⟩ .f32) (b : FVec Ideal ⟨1, ![c]⟩ .f32) :
    addf x (broadcastInDim ⟨2, ![n, c]⟩ ![0, 1] h2 (broadcastInDim ⟨2, ![1, c]⟩ ![1] h1 b)) = addBias x b := by
  funext i
  rw [addf_apply, Cert.LibHostRows.rowBroadcast_apply h1 h2 b i]
  rfl

/-- The host's bias followed by its maximum with the zero splat is the positive part. -/
theorem hostBiasRelu_eq (h1 : (⟨1, ![c]⟩ : Shape).BroadcastsInDim ⟨2, ![1, c]⟩ ![1])
    (h2 : (⟨2, ![1, c]⟩ : Shape).BroadcastsInDim ⟨2, ![n, c]⟩ ![0, 1])
    (h0 : (⟨0, ![]⟩ : Shape).BroadcastsInDim ⟨2, ![n, c]⟩ ![])
    (x : FVec Ideal ⟨2, ![n, c]⟩ .f32) (b : FVec Ideal ⟨1, ![c]⟩ .f32) :
    maximumf (addf x (broadcastInDim ⟨2, ![n, c]⟩ ![0, 1] h2 (broadcastInDim ⟨2, ![1, c]⟩ ![1] h1 b)))
        (broadcastInDim ⟨2, ![n, c]⟩ ![] h0 (constant (F := Ideal) ⟨0, ![]⟩ .f32 0x00000000#32))
      = biasRelu x b := by
  funext i
  rw [maximumf_apply, zeroSplat_apply h0 i, hostAddBias_eq h1 h2 x b]
  rfl

/-! ## The bias given as a row

  A kernel receives the bias as the 1 × c reshape of the vector and broadcasts that row down the block's rows. -/

/-- A row added to every row of a matrix. -/
def addBiasRow (x : FVec Ideal ⟨2, ![n, c]⟩ .f32) (b : FVec Ideal ⟨2, ![1, c]⟩ .f32) : FVec Ideal ⟨2, ![n, c]⟩ .f32 :=
  fun i => x i + b (ix2 (0 : Fin 1) (i 1))

/-- The positive part of a matrix plus a row on every row. -/
def biasReluRow (x : FVec Ideal ⟨2, ![n, c]⟩ .f32) (b : FVec Ideal ⟨2, ![1, c]⟩ .f32) : FVec Ideal ⟨2, ![n, c]⟩ .f32 :=
  fun i => max (x i + b (ix2 (0 : Fin 1) (i 1))) 0

theorem addBiasRow_apply (x : FVec Ideal ⟨2, ![n, c]⟩ .f32) (b : FVec Ideal ⟨2, ![1, c]⟩ .f32) (r : Fin n) (q : Fin c) :
    addBiasRow x b (ix2 r q) = x (ix2 r q) + b (ix2 (0 : Fin 1) q) := rfl

theorem biasReluRow_apply (x : FVec Ideal ⟨2, ![n, c]⟩ .f32) (b : FVec Ideal ⟨2, ![1, c]⟩ .f32) (r : Fin n) (q : Fin c) :
    biasReluRow x b (ix2 r q) = max (x (ix2 r q) + b (ix2 (0 : Fin 1) q)) 0 := rfl

/-- The row that is the reshape of a vector adds as the vector does. -/
theorem addBiasRow_cast (h : (⟨1, ![c]⟩ : Shape).ShapeCasts ⟨2, ![1, c]⟩)
    (x : FVec Ideal ⟨2, ![n, c]⟩ .f32) (b : FVec Ideal ⟨1, ![c]⟩ .f32) :
    addBiasRow x (shapeCast ⟨2, ![1, c]⟩ b h) = addBias x b := by
  funext i
  obtain ⟨r, q, rfl⟩ : ∃ (r : Fin n) (q : Fin c), i = ix2 r q := ⟨i 0, i 1, eq_ix2 i⟩
  show x (ix2 r q) + shapeCast ⟨2, ![1, c]⟩ b h (ix2 (0 : Fin 1) q) = x (ix2 r q) + b (ix1 q)
  rw [Cert.KernelBody.shapeCast_row_apply]

theorem biasReluRow_cast (h : (⟨1, ![c]⟩ : Shape).ShapeCasts ⟨2, ![1, c]⟩)
    (x : FVec Ideal ⟨2, ![n, c]⟩ .f32) (b : FVec Ideal ⟨1, ![c]⟩ .f32) :
    biasReluRow x (shapeCast ⟨2, ![1, c]⟩ b h) = biasRelu x b := by
  funext i
  obtain ⟨r, q, rfl⟩ : ∃ (r : Fin n) (q : Fin c), i = ix2 r q := ⟨i 0, i 1, eq_ix2 i⟩
  show max (x (ix2 r q) + shapeCast ⟨2, ![1, c]⟩ b h (ix2 (0 : Fin 1) q)) 0 = max (x (ix2 r q) + b (ix1 q)) 0
  rw [Cert.KernelBody.shapeCast_row_apply]

end Cert.Layers

end
-- ==== Proof.LibSegmentSpec.lean ====
/-
  The two layers of the message-passing step as functions of whole arrays over the extended reals, with arbitrary
  extents; nothing here depends on a program.

  * `segSum hN x ig is` is a segment sum of gathered rows: row `n` of the result is the sum, over the edges `e` whose
    destination word `is[e]` read as a signed integer is `n`, of the row of the table `x` that the source word `ig[e]`
    names (read signed and clamped into the table), added to zero.  An edge whose destination is negative or past the
    end contributes nowhere.
  * `fusedRow x w s wr b` is the second dense layer with its last input column kept apart: entry (r, q) is the positive
    part of (sum over j of x (r, j) · w (j, q)) + s (r, 0) · wr (0, q) + b (0, q).
-/
import Idealize.ShloMosaic.PureOps.Ideal
import Idealize.ShloMosaic.Lib.ValueIdx
import proofs.«104024_j24507083391230_2_alg».proof.Proof.LibGatherTable
import proofs.«104024_j24507083391230_2_alg».proof.Proof.LibDenseLayers

noncomputable section

open scoped BigOperators

namespace Cert.Spec

open Idealize.ShloMosaic Idealize.ShloMosaic.ValueIdx Idealize.ShloMosaic.GatherTable

/-- The segment sum of gathered rows, from zero. -/
def segSum {N M C E : ℕ} (hN : 0 < N) (x : FVec Ideal ⟨2, ![N, C]⟩ .f32) (ig is : IVec ⟨2, ![E, 1]⟩ 32) :
    FVec Ideal ⟨2, ![M, C]⟩ .f32 :=
  fun i => 0 + ∑ e ∈ Finset.univ.filter (fun e : Fin E => (is (ix2 e (0 : Fin 1))).toInt = ((i 0).val : ℤ)),
    x (ix2 (clampIdx N hN (ig (ix2 e (0 : Fin 1)))) (i 1))

theorem segSum_apply {N M C E : ℕ} (hN : 0 < N) (x : FVec Ideal ⟨2, ![N, C]⟩ .f32) (ig is : IVec ⟨2, ![E, 1]⟩ 32)
    (n : Fin M) (q : Fin C) :
    segSum (M := M) hN x ig is (ix2 n q) =
      0 + ∑ e ∈ Finset.univ.filter (fun e : Fin E => (is (ix2 e (0 : Fin 1))).toInt = (n.val : ℤ)),
        x (ix2 (clampIdx N hN (ig (ix2 e (0 : Fin 1)))) q) := rfl

/-- The second dense layer with the last input column kept apart. -/
def fusedRow {n k c : ℕ} (x : FVec Ideal ⟨2, ![n, k]⟩ .f32) (w : FVec Ideal ⟨2, ![k, c]⟩ .f32)
    (s : FVec Ideal ⟨2, ![n, 1]⟩ .f32) (wr b : FVec Ideal ⟨2, ![1, c]⟩ .f32) : FVec Ideal ⟨2, ![n, c]⟩ .f32 :=
  fun i => max ((Cert.Layers.mm x w i + s (ix2 (i 0) (0 : Fin 1)) * wr (ix2 (0 : Fin 1) (i 1))) + b (ix2 (0 : Fin 1) (i 1))) 0

theorem fusedRow_apply {n k c : ℕ} (x : FVec Ideal ⟨2, ![n, k]⟩ .f32) (w : FVec Ideal ⟨2, ![k, c]⟩ .f32)
    (s : FVec Ideal ⟨2, ![n, 1]⟩ .f32) (wr b : FVec Ideal ⟨2, ![1, c]⟩ .f32) (r : Fin n) (q : Fin c) :
    fusedRow x w s wr b (ix2 r q) =
      max (((∑ j : Fin k, x (ix2 r j) * w (ix2 j q)) + s (ix2 r (0 : Fin 1)) * wr (ix2 (0 : Fin 1) q)) + b (ix2 (0 : Fin 1) q)) 0 := rfl

end Cert.Spec

end
-- ==== Proof.LibSegmentSum.lean ====
/-
  Segment sums of gathered rows on the host, and the one law that joins the two programs, over the extended reals with
  arbitrary extents; nothing here depends on a program.

  * A row gather followed by a row scatter-add into the zero array is the segment sum `Cert.Spec.segSum`
    (`host_segSum`): entry (n, q) is zero plus the sum over the edges whose destination is n of the table's entry in
    the source row and column q.
  * A segment sum works column by column: if column q of one table is column q' of another, so are the segment sums'
    (`segSum_congr_col`).  So the segment sum of a table with one more column appended is, on the old columns, the
    old table's segment sum, and on the new column, the appended column's.
  * A matrix product over K + 1 inner coordinates is the product over the first K plus the last coordinate's term
    (a finite sum split off its last term: only the associativity of addition is used, which holds on the extended
    reals without any finiteness).  Hence the dense layer applied to the widened segment sum with the whole weight
    matrix is the dense layer applied to the two segment sums apart, with the weight matrix's first K rows and its
    last row (`bridge`).
-/
import Idealize.ShloMosaic.PureOps.Ideal
import Idealize.ShloMosaic.PureOps.Ideal.Laws
import Idealize.ShloMosaic.Lib.ValueIdx
import Idealize.ShloMosaic.Lib.Pipeline.Value
import proofs.«104024_j24507083391230_2_alg».proof.Proof.LibGatherTable
import proofs.«104024_j24507083391230_2_alg».proof.Proof.LibScatterRows
import proofs.«104024_j24507083391230_2_alg».proof.Proof.LibDenseLayers
import proofs.«104024_j24507083391230_2_alg».proof.Proof.LibSegmentSpec

noncomputable section

open scoped BigOperators

namespace Cert.Segments

open Idealize.ShloMosaic Idealize.ShloMosaic.ValueIdx Idealize.ShloMosaic.GatherTable Idealize.ShloMosaic.ScatterRows
open Cert.Spec Cert.Layers

/-- A row gather scattered-and-added into the zero array is the segment sum of the gathered rows. -/
theorem host_segSum {N M C E : ℕ} (hN : 0 < N)
    (dg : GatherDims ⟨2, ![N, C]⟩ ⟨2, ![E, 1]⟩ ⟨2, ![E, C]⟩)
    (wfg : GatherDims.WF ⟨2, ![N, C]⟩ ⟨2, ![E, 1]⟩ ⟨2, ![E, C]⟩ [1] [0] [] [0] [] 1 ![1, C])
    (hdg : dg = rowsDims N C E wfg)
    (ds : ScatterDims ⟨2, ![M, C]⟩ ⟨2, ![E, 1]⟩ ⟨2, ![E, C]⟩)
    (wfs : ScatterDims.WF ⟨2, ![M, C]⟩ ⟨2, ![E, 1]⟩ ⟨2, ![E, C]⟩ [1] [0] [0] 1)
    (hds : ds = rowDims M C E wfs)
    (h0 : (⟨0, ![]⟩ : Shape).BroadcastsInDim ⟨2, ![M, C]⟩ ![])
    (x : FVec Ideal ⟨2, ![N, C]⟩ .f32) (ig is : IVec ⟨2, ![E, 1]⟩ 32) :
    Host.scatterAdd ds (broadcastInDim ⟨2, ![M, C]⟩ ![] h0 (constant (F := Ideal) ⟨0, ![]⟩ .f32 0x00000000#32)) is
        (Host.gather dg x ig)
      = segSum hN x ig is := by
  subst hdg hds
  funext i
  obtain ⟨n, q, rfl⟩ : ∃ (n : Fin M) (q : Fin C), i = ix2 n q := ⟨i 0, i 1, eq_ix2 i⟩
  rw [scatterAdd_rows_apply wfs, zeroSplat_apply h0, segSum_apply]
  refine congrArg (0 + ·) (Finset.sum_congr rfl fun e _ => ?_)
  exact gather_rows_apply hN wfg x ig e q

/-- Segment sums work column by column. -/
theorem segSum_congr_col {N M C C' E : ℕ} (hN : 0 < N) (x : FVec Ideal ⟨2, ![N, C]⟩ .f32)
    (x' : FVec Ideal ⟨2, ![N, C']⟩ .f32) (ig is : IVec ⟨2, ![E, 1]⟩ 32) (q : Fin C) (q' : Fin C')
    (h : ∀ r : Fin N, x (ix2 r q) = x' (ix2 r q')) (n : Fin M) :
    segSum (M := M) hN x ig is (ix2 n q) = segSum (M := M) hN x' ig is (ix2 n q') := by
  rw [segSum_apply, segSum_apply]
  exact congrArg (0 + ·) (Finset.sum_congr rfl fun e _ => h _)

/-- The dense layer over K + 1 input columns, applied to a segment sum whose table is a K-column table with one
    column appended, is the layer with the appended column's term kept apart. -/
theorem bridge {N M K C E : ℕ} (hN : 0 < N)
    (x : FVec Ideal ⟨2, ![N, K]⟩ .f32) (y : FVec Ideal ⟨2, ![N, 1]⟩ .f32) (t : FVec Ideal ⟨2, ![N, K + 1]⟩ .f32)
    (ht_l : ∀ (r : Fin N) (j : Fin K), t (ix2 r j.castSucc) = x (ix2 r j))
    (ht_r : ∀ r : Fin N, t (ix2 r (Fin.last K)) = y (ix2 r (0 : Fin 1)))
    (Wf : FVec Ideal ⟨2, ![K + 1, C]⟩ .f32) (Wm : FVec Ideal ⟨2, ![K, C]⟩ .f32) (wr : FVec Ideal ⟨2, ![1, C]⟩ .f32)
    (hWm : ∀ (j : Fin K) (q : Fin C), Wm (ix2 j q) = Wf (ix2 j.castSucc q))
    (hwr : ∀ q : Fin C, wr (ix2 (0 : Fin 1) q) = Wf (ix2 (Fin.last K) q))
    (b : FVec Ideal ⟨1, ![C]⟩ .f32) (brow : FVec Ideal ⟨2, ![1, C]⟩ .f32)
    (hb : ∀ q : Fin C, brow (ix2 (0 : Fin 1) q) = b (ix1 q))
    (ig is : IVec ⟨2, ![E, 1]⟩ 32) :
    biasRelu (mm (segSum (M := M) hN t ig is) Wf) b
      = fusedRow (segSum (M := M) hN x ig is) Wm (segSum (M := M) hN y ig is) wr brow := by
  funext i
  obtain ⟨r, q, rfl⟩ : ∃ (r : Fin M) (q : Fin C), i = ix2 r q := ⟨i 0, i 1, eq_ix2 i⟩
  rw [fusedRow_apply]
  show max (mm (segSum (M := M) hN t ig is) Wf (ix2 r q) + b (ix1 q)) 0 = _
  rw [mm_apply, Fin.sum_univ_castSucc, hb q, hwr q,
    segSum_congr_col hN t y ig is (Fin.last K) (0 : Fin 1) ht_r r]
  refine congrArg (fun z => max ((z + _) + _) 0) (Finset.sum_congr rfl fun j _ => ?_)
  rw [hWm j q, segSum_congr_col hN t x ig is j.castSucc j (fun r' => ht_l r' j) r]

end Cert.Segments

end
-- ==== Proof.Region0.lean ====
/-
  What the first pipelined call leaves in its output array, as one function of the arrays it finds, over the
  extended reals.

  The call walks 100 grid points. At point t it sees rows 4000·t … 4000·t + 3999 of a 400000 × 128 matrix x, the
  whole 128 × 128 matrix w and the whole 1 × 128 bias row b, and writes rows 4000·t … 4000·t + 3999 of the output:
  entry (p, q) of the block is max (∑ j, x (4000·t + p, j) · w (j, q) + b (0, q)) 0. The blocks of the output are
  disjoint and fill its 400000 rows, so in the end the output is the dense layer max (x · w + b) 0 of the three
  arrays (`final`), whatever those arrays hold when the call starts.

  The steps: the body's arithmetic read at one entry of a block (`payload_apply`); which entry of its array an
  entry of a block is, for each of the three inputs (`read_rows`, `read_weights`, `read_bias`); what one point
  writes back (`flushed_eq`); the blocks cover the output (`cover`).
-/
import Idealize.ShloMosaic.Lib.Pipeline.Value
import Idealize.ShloMosaic.Lib.ValueIdx
import Idealize.ShloMosaic.PureOps.Ideal.Laws
import proofs.«104024_j24507083391230_2_alg».proof.Proof.Gen.KernelIdeal.Frame
import proofs.«104024_j24507083391230_2_alg».proof.Proof.LibDenseLayers
import proofs.«104024_j24507083391230_2_alg».proof.Proof.LibRowOps

set_option maxRecDepth 16384

noncomputable section

open scoped BigOperators

namespace Cert.KernelIdeal.Region0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Idealize.ShloMosaic.ValueIdx

/-! ## The body's arithmetic at one entry of a block -/

/-- Entry (p, q) of what the body computes from a block of 4000 rows of the left matrix, the whole right matrix
    and the bias row: the inner product of row p of the block with column q of the right matrix, plus entry q of
    the bias, cut off below at zero. The narrowing of the two factors is the identity on extended reals, the
    accumulator starts from zero, and the bias row is repeated down the rows. -/
theorem payload_apply (x0 : Vec Ideal S4000x128 .f32) (x1 : Vec Ideal S128x128 .f32) (x2 : Vec Ideal S1x128 .f32)
    (p : Fin 4000) (q : Fin 128) :
    Gen.k0_pay1 x0 x1 x2 (ix2 p q)
      = max ((∑ j : Fin 128, x0 (ix2 p j) * x1 (ix2 j q)) + x2 (ix2 (0 : Fin 1) q)) 0 := by
  unfold Gen.k0_pay1
  have hm : matmul dot_S4000x128_S128x128_S4000x128_1_0_0_1_n_n none
        (truncf (F := Ideal) .bf16 x0 bitsLt_bf16_f32) (truncf (F := Ideal) .bf16 x1 bitsLt_bf16_f32)
        (constant (F := Ideal) S4000x128 .f32 0x00000000#32) (ix2 p q)
      = ∑ j : Fin 128, x0 (ix2 p j) * x1 (ix2 j q) :=
    Cert.KernelBody.matmul_plain_zero_apply dot_S4000x128_S128x128_S4000x128_1_0_0_1_n_n_wf none
      (truncf (F := Ideal) .bf16 x0 bitsLt_bf16_f32) (truncf (F := Ideal) .bf16 x1 bitsLt_bf16_f32) p q
  have h0 : (FloatOps.ofBits (F := Ideal) .f32 0x00000000#32 : Ideal .f32) = 0 := Ideal.ofBits_zero_f32
  rw [maximumf_apply, addf_apply, broadcast_apply, Cert.KernelBody.broadcastTo_row_apply,
    shapeCast_self, shapeCast_self, shapeCast_self, hm, h0]

variable (V : (c : Dev nD) → (b : Ref sig .tc) → Buf (Elt Ideal) ((c : Thread nD τ).loc b))

/-! ## The blocks of the four arrays -/

/-- The zero offsets of a whole-block access, spelt as a constant function. -/
theorem off_zero : (![0, 0] : Fin 2 → Nat) = fun _ => 0 := funext fun a => by fin_cases a <;> rfl

/-- What the output array holds in the end: the dense layer of the three arrays the call reads, entry by entry. -/
abbrev G (c : Dev nD) : S400000x128.Idx → EReal :=
  Cert.Layers.biasReluRow (Cert.Layers.mm (V c main_v9) (V c main_arg2)) (V c main_v10)

/-- The block indices at grid point t: the left matrix and the output move down by one block of rows per point,
    the right matrix and the bias row stay whole. -/
theorem index_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Entry y of the left matrix's block at point t is the matrix's entry 4000·t rows further down. -/
theorem read_rows (c : Dev nD) (t : Fin cfg0.N) (y : S4000x128.Idx) (i : S400000x128.Idx)
    (h0 : (i 0).val = t.val * 4000 + (y 0).val) (h1 : (i 1).val = (y 1).val) :
    Gen.iblk0 V c 0 t y = V c main_v9 i := by
  obtain ⟨e0, e1, -⟩ := index_facts t
  show V c main_v9 (((cfg0.win 0).blk t).view.emb y) = V c main_v9 i
  refine congrArg _ ?_
  funext a; apply Fin.ext
  match a with
  | ⟨0, _⟩ => show win0_0.index t (0 : Fin 2) * 4000 + 1 * (y 0).val = (i 0).val; omega
  | ⟨1, _⟩ => show win0_0.index t (1 : Fin 2) * 128 + 1 * (y 1).val = (i 1).val; omega

/-- The right matrix's block is the whole matrix at every point. -/
theorem read_weights (c : Dev nD) (t : Fin cfg0.N) (y : S128x128.Idx) (i : S128x128.Idx)
    (h0 : (i 0).val = (y 0).val) (h1 : (i 1).val = (y 1).val) :
    Gen.iblk0 V c 1 t y = V c main_arg2 i := by
  obtain ⟨-, -, e0, e1, -⟩ := index_facts t
  show V c main_arg2 (((cfg0.win 1).blk t).view.emb y) = V c main_arg2 i
  refine congrArg _ ?_
  funext a; apply Fin.ext
  match a with
  | ⟨0, _⟩ => show win0_1.index t (0 : Fin 2) * 128 + 1 * (y 0).val = (i 0).val; omega
  | ⟨1, _⟩ => show win0_1.index t (1 : Fin 2) * 128 + 1 * (y 1).val = (i 1).val; omega

/-- The bias row's block is the whole row at every point. -/
theorem read_bias (c : Dev nD) (t : Fin cfg0.N) (y : S1x128.Idx) (i : S1x128.Idx)
    (h0 : (i 0).val = (y 0).val) (h1 : (i 1).val = (y 1).val) :
    Gen.iblk0 V c 2 t y = V c main_v10 i := by
  obtain ⟨-, -, -, -, e0, e1, -⟩ := index_facts t
  show V c main_v10 (((cfg0.win 2).blk t).view.emb y) = V c main_v10 i
  refine congrArg _ ?_
  funext a; apply Fin.ext
  match a with
  | ⟨0, _⟩ => show win0_2.index t (0 : Fin 2) * 1 + 1 * (y 0).val = (i 0).val; omega
  | ⟨1, _⟩ => show win0_2.index t (1 : Fin 2) * 128 + 1 * (y 1).val = (i 1).val; omega

/-! ## What one grid point writes back -/

/-- The dense layer at an index: the inner product of the index's row of the left matrix with its column of the
    right matrix, plus the bias entry of that column, cut off below at zero. -/
theorem layer_apply (x : FVec Ideal S400000x128 .f32) (w : FVec Ideal S128x128 .f32) (b : FVec Ideal S1x128 .f32)
    (i : S400000x128.Idx) :
    Cert.Layers.biasReluRow (Cert.Layers.mm x w) b i
      = max ((∑ j' : Fin 128, x (ix2 (i 0) j') * w (ix2 j' (i 1))) + b (ix2 (0 : Fin 1) (i 1))) 0 := rfl

/-- Point t writes back block t of the dense layer: row p of its block is row 4000·t + p of the layer, which
    depends on that one row of the left matrix, on the whole right matrix and on the bias row. -/
theorem flushed_eq (c : Dev nD) (t : Fin cfg0.N) :
    (Gen.dat0 (F := Ideal) V c).flushed 3 t = ((cfg0.win 3).blk t).view.read (Elt Ideal) (G V c) := by
  show (cfg0.win 3).cut (grid0.coords t) ((Gen.dat0 V c).after 3 t) = _
  rw [Gen.after0_3]
  unfold Gen.out0_3
  rw [View.canon_unit_zero off_zero]
  simp only [View.ld_unit_zero (S := S4000x128) off_zero, View.ld_unit_zero (S := S128x128) off_zero,
    View.ld_unit_zero (S := S1x128) off_zero]
  obtain ⟨-, -, -, -, -, -, e0, e1⟩ := index_facts t
  funext j
  obtain ⟨p, q, rfl⟩ : ∃ (p : Fin 4000) (q : Fin 128), j = ix2 p q := ⟨j 0, j 1, eq_ix2 j⟩
  show Gen.k0_pay1 (Gen.iblk0 V c 0 t) (Gen.iblk0 V c 1 t) (Gen.iblk0 V c 2 t) (ix2 p q)
    = G V c (((cfg0.win 3).blk t).view.emb (ix2 p q))
  have hi0 : ((((cfg0.win 3).blk t).view.emb (ix2 p q)) 0).val = t.val * 4000 + p.val := by
    show win0_3.index t (0 : Fin 2) * 4000 + 1 * p.val = _; omega
  have hi1 : ((((cfg0.win 3).blk t).view.emb (ix2 p q)) 1).val = q.val := by
    show win0_3.index t (1 : Fin 2) * 128 + 1 * q.val = _; omega
  generalize ((cfg0.win 3).blk t).view.emb (ix2 p q) = i at hi0 hi1 ⊢
  have hr : ∀ j' : Fin 128, Gen.iblk0 V c 0 t (ix2 p j') = V c main_v9 (ix2 (i 0) j') :=
    fun j' => read_rows V c t (ix2 p j') (ix2 (i 0) j') hi0 rfl
  have hw : ∀ j' : Fin 128, Gen.iblk0 V c 1 t (ix2 j' q) = V c main_arg2 (ix2 j' (i 1)) :=
    fun j' => read_weights V c t (ix2 j' q) (ix2 j' (i 1)) rfl hi1
  have hb : Gen.iblk0 V c 2 t (ix2 (0 : Fin 1) q) = V c main_v10 (ix2 (0 : Fin 1) (i 1)) :=
    read_bias V c t (ix2 (0 : Fin 1) q) (ix2 (0 : Fin 1) (i 1)) rfl hi1
  rw [payload_apply]
  refine Eq.trans ?_ (layer_apply (V c main_v9) (V c main_arg2) (V c main_v10) i).symm
  simp only [hr, hw, hb]

/-! ## The blocks tile the output -/

/-- An index of the output is in point t's block iff each coordinate is in the block's range on its axis. -/
theorem mem_blk (t : Fin cfg0.N) (i : S400000x128.Idx) :
    i ∈ ((cfg0.win 3).blk t).view.set ↔ ∀ a : Fin 2, win0_3.index t a * S4000x128.size a ≤ (i a).val
      ∧ (i a).val < win0_3.index t a * S4000x128.size a + S4000x128.size a := by
  show i ∈ ((View.whole main_v11).slice (win0_3.rect t)).set ↔ _
  rw [View.set_slice_whole, Rect.mem_set_unit]
  exact Iff.rfl

/-- Row r of the output lies in the block of point r / 4000: the 100 blocks of 4000 rows fill the 400000 rows. -/
theorem cover (i : S400000x128.Idx) :
    ∃ t : Fin cfg0.N, (cfg0.win 3).flush t = true ∧ i ∈ ((cfg0.win 3).blk t).view.set := by
  have hi0 : (i 0).val < 400000 := (i 0).isLt
  have hi1 : (i 1).val < 128 := (i 1).isLt
  have hN : cfg0.N = 100 := N_0
  obtain ⟨t, ht⟩ : ∃ t : Fin cfg0.N, t.val = (i 0).val / 4000 := ⟨⟨(i 0).val / 4000, by rw [hN]; omega⟩, rfl⟩
  obtain ⟨-, -, -, -, -, -, e0, e1⟩ := index_facts t
  refine ⟨t, flush0_3 t, ?_⟩
  rw [mem_blk]
  intro a
  match a with
  | ⟨0, _⟩ =>
    show win0_3.index t (0 : Fin 2) * 4000 ≤ (i 0).val ∧ (i 0).val < win0_3.index t (0 : Fin 2) * 4000 + 4000
    omega
  | ⟨1, _⟩ =>
    show win0_3.index t (1 : Fin 2) * 128 ≤ (i 1).val ∧ (i 1).val < win0_3.index t (1 : Fin 2) * 128 + 128
    omega

/-! ## The output array after the call -/

/-- After the 100 points the output array is the dense layer of the arrays the call found:
    max (x · w + b) 0 with x the 400000 × 128 left matrix, w the 128 × 128 right matrix and b the bias row. -/
theorem final (c : Dev nD) :
    ((Gen.dat0 (F := Ideal) V c).arrAt 3 cfg0.N : S400000x128.Idx → EReal)
      = Cert.Layers.biasReluRow (Cert.Layers.mm (V c main_v9) (V c main_arg2)) (V c main_v10) :=
  (Gen.dat0 V c).arrAt_eq_of_cover 3 (G V c) (fun t _ => flushed_eq V c t) cover

end Cert.KernelIdeal.Region0

end
-- ==== Proof.LibKeepdims.lean ====
/-
  Rank-2 vectors with a kept column, read at an index: the cast of a length-`a` vector to a column [a, 1], the
  broadcast of a column [a, 1] along the rows of [a, b], and the sum and the maximum of each row of an [a, b]
  vector over the extended reals.  Each says which ONE operand entry (or which row of entries) a result entry reads.
-/
import Idealize.ShloMosaic.Lib.Pipeline.Value
import Idealize.ShloMosaic.Lib.ValueIdx
import Idealize.ShloMosaic.PureOps.Ideal.Laws

noncomputable section

namespace Cert.LibKeepdims

open Idealize.ShloMosaic Idealize.ShloMosaic.ValueIdx

variable {α : Type} {a b : ℕ}

/-- Entry `(n, 0)` of the column cast of a vector is the vector's entry `n`: both sit at row-major position `n`. -/
theorem shapeCast_col_apply (x : (⟨1, ![a]⟩ : Shape).Idx → α) (h : (⟨1, ![a]⟩ : Shape).ShapeCasts ⟨2, ![a, 1]⟩) (n : Fin a) :
    shapeCast ⟨2, ![a, 1]⟩ x h (ix2 n (0 : Fin 1)) = x (ix1 n) :=
  shapeCast_apply x h (ix2 n (0 : Fin 1)) (ix1 n) (by
    rw [Shape.rowMajor_val_one, Shape.rowMajor_val_two]
    show n.val = n.val * 1 + 0
    omega)

/-- Entry `(n, d)` of a column broadcast along the rows is the column's entry `(n, 0)`. -/
theorem broadcastTo_col_apply (x : (⟨2, ![a, 1]⟩ : Shape).Idx → α) (h : (⟨2, ![a, 1]⟩ : Shape).Broadcasts ⟨2, ![a, b]⟩)
    (n : Fin a) (d : Fin b) : broadcastTo ⟨2, ![a, b]⟩ x h (ix2 n d) = x (ix2 n (0 : Fin 1)) :=
  broadcastTo_apply x h (ix2 n d) (ix2 n (0 : Fin 1)) (fun k => by
    match k with
    | ⟨0, _⟩ =>
      show n.val = if a = 1 then 0 else n.val
      have := n.isLt
      split <;> omega
    | ⟨1, _⟩ => rfl)

/-- The reduced index `n` of a row reduction with the column `k` put back is `(n, k)`. -/
theorem lift_row (h : (⟨2, ![a, b]⟩ : Shape).Reduces [1] ⟨1, ![a]⟩) (n : Fin a) (k : Fin b) :
    h.lift (ix1 n) k = ix2 n k := by
  funext c; apply Fin.ext
  fin_cases c <;> rfl

variable {φ : FTy}

/-- A row sum at row `n` is the sum of that row's entries. -/
theorem rowsum_apply (src : FVec Ideal ⟨2, ![a, b]⟩ φ) (acc : BitVec φ.bits) (h : (⟨2, ![a, b]⟩ : Shape).Reduces [1] ⟨1, ![a]⟩)
    (hφ : FKind.Formats φ) (hacc : acc = FKind.add.neutral φ hφ) (n : Fin a) :
    multiReduction .add [1] ⟨1, ![a]⟩ src acc h hφ hacc (ix1 n) = ∑ k : Fin b, src (ix2 n k) :=
  (Ideal.multiReduction_add_single src acc h hφ hacc (ix1 n)).trans
    (Finset.sum_congr rfl fun k _ => congrArg src (lift_row h n k))

/-- A row maximum at row `n` is the fold of `max` over that row's entries from the accumulator's value. -/
theorem rowmax_apply (src : FVec Ideal ⟨2, ![a, b]⟩ φ) (acc : BitVec φ.bits) (h : (⟨2, ![a, b]⟩ : Shape).Reduces [1] ⟨1, ![a]⟩)
    (hφ : FKind.Formats φ) (hacc : acc = FKind.maximumf.neutral φ hφ) (n : Fin a) :
    multiReduction .maximumf [1] ⟨1, ![a]⟩ src acc h hφ hacc (ix1 n)
      = (Finset.univ : Finset (Fin b)).fold max (Ideal.ofBits φ acc) (fun k => src (ix2 n k)) :=
  (Ideal.multiReduction_maximumf_single src acc h hφ hacc (ix1 n)).trans
    (congrArg (fun f => (Finset.univ : Finset (Fin b)).fold max (Ideal.ofBits φ acc) f)
      (funext fun k => congrArg src (lift_row h n k)))

end Cert.LibKeepdims

end
-- ==== Proof.Region1.lean ====
/-
  What the second kernel call leaves in its output array, as one function of the arrays it finds.

  The call walks 50 grid points. At point t it reads rows 4000·t … 4000·t + 3999 of a 200000 × 128 matrix x and of a
  200000 × 1 column s, the whole of a 128 × 128 matrix w and of two 1 × 128 rows wr and b, and writes rows
  4000·t … 4000·t + 3999 of the 200000 × 128 output: entry (p, q) of the block written is the positive part of
  (sum over j of x (p, j) · w (j, q)) + s (p, 0) · wr (0, q) + b (0, q), the entries read at the block's rows.
  An entry of the output therefore depends on one row of x, one entry of s, one column of w and one entry each of
  wr and b; the 50 blocks tile the output, so after the call the output is the layer function `fusedRow` of the
  five arrays, whatever those arrays hold.
-/
import proofs.«104024_j24507083391230_2_alg».proof.Proof.Gen.KernelIdeal.Frame
import proofs.«104024_j24507083391230_2_alg».proof.Proof.LibRowOps
import proofs.«104024_j24507083391230_2_alg».proof.Proof.LibKeepdims
import proofs.«104024_j24507083391230_2_alg».proof.Proof.LibDenseLayers
import proofs.«104024_j24507083391230_2_alg».proof.Proof.LibSegmentSpec
import Idealize.ShloMosaic.Lib.Pipeline.Value
import Idealize.ShloMosaic.Lib.ValueIdx
import Idealize.ShloMosaic.PureOps.Ideal.Laws

set_option maxRecDepth 16384

noncomputable section

namespace Cert.KernelIdeal.Region1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Idealize.ShloMosaic.ValueIdx
open scoped BigOperators

/-! ## The block's arithmetic at an entry -/

/-- Entry (p, q) of what the body computes from its five loaded blocks: the positive part of the row-by-column
    product plus the kept column's entry times the kept row's entry plus the bias entry. The narrowing of the
    product's operands is the identity over the extended reals, and the casts are to the same shapes. -/
theorem payload_apply (x0 : Vec Ideal S4000x128 .f32) (x1 : Vec Ideal S128x128 .f32) (x2 : Vec Ideal S4000x1 .f32)
    (x3 : Vec Ideal S1x128 .f32) (x4 : Vec Ideal S1x128 .f32) (p : Fin 4000) (q : Fin 128) :
    Gen.k1_pay1 (F := Ideal) x0 x1 x2 x3 x4 (ix2 p q)
      = max (((∑ j : Fin 128, x0 (ix2 p j) * x1 (ix2 j q)) + x2 (ix2 p (0 : Fin 1)) * x3 (ix2 (0 : Fin 1) q))
          + x4 (ix2 (0 : Fin 1) q)) 0 := by
  unfold Gen.k1_pay1
  simp only [shapeCast_self]
  rw [maximumf_apply, broadcast_apply, addf_apply, addf_apply, mulf_apply]
  rw [Cert.LibKeepdims.broadcastTo_col_apply, Cert.KernelBody.broadcastTo_row_apply, Cert.KernelBody.broadcastTo_row_apply]
  have hm : matmul dot_S4000x128_S128x128_S4000x128_1_0_0_1_n_n none (truncf FTy.bf16 x0 bitsLt_bf16_f32)
      (truncf FTy.bf16 x1 bitsLt_bf16_f32) (constant (F := Ideal) S4000x128 FTy.f32 0x00000000#32) (ix2 p q)
        = ∑ j : Fin 128, x0 (ix2 p j) * x1 (ix2 j q) :=
    Cert.KernelBody.matmul_plain_zero_apply dot_S4000x128_S128x128_S4000x128_1_0_0_1_n_n_wf none
      (truncf FTy.bf16 x0 bitsLt_bf16_f32) (truncf FTy.bf16 x1 bitsLt_bf16_f32) p q
  rw [hm]
  exact congrArg (max _) Ideal.ofBits_zero_f32

/-! ## Which rows a grid point's blocks are -/

variable (V : (c : Dev nD) → (b : Ref sig .tc) → Buf (Elt Ideal) ((c : Thread nD τ).loc b))

theorem zero_offsets : (![0, 0] : Fin 2 → Nat) = fun _ => 0 := funext fun a => by fin_cases a <;> rfl

/-- The block indices at grid point t, decided over the 50 points: the matrix x, the column s and the output are at
    block row t and block column 0; the matrix w and the rows wr and b are at block (0, 0) at every point. -/
theorem block_index : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Entry (p, j) of the block of x at point t is entry (4000·t + p, j) of x. -/
theorem read_x (c : Dev nD) (t : Fin cfg1.N) (p : Fin 4000) (j : Fin 128) (R : Fin 200000)
    (hR : R.val = 4000 * t.val + p.val) :
    (Gen.iblk1 V c 0 t : Vec Ideal S4000x128 .f32) (ix2 p j) = (V c main_v21 : S200000x128.Idx → EReal) (ix2 R j) := by
  obtain ⟨e0, e1, -⟩ := block_index t
  show V c main_v21 (((cfg1.win 0).blk t).view.emb (ix2 p j)) = V c main_v21 (ix2 R j)
  refine congrArg _ (funext fun a => Fin.ext ?_)
  match a with
  | ⟨0, _⟩ => show win1_0.index t (0 : Fin 2) * 4000 + 1 * p.val = R.val; omega
  | ⟨1, _⟩ => show win1_0.index t (1 : Fin 2) * 128 + 1 * j.val = j.val; omega

/-- Entry (j, q) of the block of w at any point is entry (j, q) of w: the block is the whole matrix. -/
theorem read_w (c : Dev nD) (t : Fin cfg1.N) (j q : Fin 128) :
    (Gen.iblk1 V c 1 t : Vec Ideal S128x128 .f32) (ix2 j q) = (V c main_v32 : S128x128.Idx → EReal) (ix2 j q) := by
  obtain ⟨-, -, e0, e1, -⟩ := block_index t
  show V c main_v32 (((cfg1.win 1).blk t).view.emb (ix2 j q)) = V c main_v32 (ix2 j q)
  refine congrArg _ (funext fun a => Fin.ext ?_)
  match a with
  | ⟨0, _⟩ => show win1_1.index t (0 : Fin 2) * 128 + 1 * j.val = j.val; omega
  | ⟨1, _⟩ => show win1_1.index t (1 : Fin 2) * 128 + 1 * q.val = q.val; omega

/-- Entry (p, 0) of the block of s at point t is entry (4000·t + p, 0) of s. -/
theorem read_s (c : Dev nD) (t : Fin cfg1.N) (p : Fin 4000) (R : Fin 200000) (hR : R.val = 4000 * t.val + p.val) :
    (Gen.iblk1 V c 2 t : Vec Ideal S4000x1 .f32) (ix2 p (0 : Fin 1))
      = (V c main_v31 : S200000x1.Idx → EReal) (ix2 R (0 : Fin 1)) := by
  obtain ⟨-, -, -, -, e0, e1, -⟩ := block_index t
  show V c main_v31 (((cfg1.win 2).blk t).view.emb (ix2 p (0 : Fin 1))) = V c main_v31 (ix2 R (0 : Fin 1))
  refine congrArg _ (funext fun a => Fin.ext ?_)
  match a with
  | ⟨0, _⟩ => show win1_2.index t (0 : Fin 2) * 4000 + 1 * p.val = R.val; omega
  | ⟨1, _⟩ => show win1_2.index t (1 : Fin 2) * 1 + 1 * 0 = 0; omega

/-- Entry (0, q) of the block of wr at any point is entry (0, q) of wr: the block is the whole row. -/
theorem read_wr (c : Dev nD) (t : Fin cfg1.N) (q : Fin 128) :
    (Gen.iblk1 V c 3 t : Vec Ideal S1x128 .f32) (ix2 (0 : Fin 1) q)
      = (V c main_v33 : S1x128.Idx → EReal) (ix2 (0 : Fin 1) q) := by
  obtain ⟨-, -, -, -, -, -, e0, e1, -⟩ := block_index t
  show V c main_v33 (((cfg1.win 3).blk t).view.emb (ix2 (0 : Fin 1) q)) = V c main_v33 (ix2 (0 : Fin 1) q)
  refine congrArg _ (funext fun a => Fin.ext ?_)
  match a with
  | ⟨0, _⟩ => show win1_3.index t (0 : Fin 2) * 1 + 1 * 0 = 0; omega
  | ⟨1, _⟩ => show win1_3.index t (1 : Fin 2) * 128 + 1 * q.val = q.val; omega

/-- Entry (0, q) of the block of b at any point is entry (0, q) of b: the block is the whole row. -/
theorem read_b (c : Dev nD) (t : Fin cfg1.N) (q : Fin 128) :
    (Gen.iblk1 V c 4 t : Vec Ideal S1x128 .f32) (ix2 (0 : Fin 1) q)
      = (V c main_v34 : S1x128.Idx → EReal) (ix2 (0 : Fin 1) q) := by
  obtain ⟨-, -, -, -, -, -, -, -, e0, e1, -⟩ := block_index t
  show V c main_v34 (((cfg1.win 4).blk t).view.emb (ix2 (0 : Fin 1) q)) = V c main_v34 (ix2 (0 : Fin 1) q)
  refine congrArg _ (funext fun a => Fin.ext ?_)
  match a with
  | ⟨0, _⟩ => show win1_4.index t (0 : Fin 2) * 1 + 1 * 0 = 0; omega
  | ⟨1, _⟩ => show win1_4.index t (1 : Fin 2) * 128 + 1 * q.val = q.val; omega

/-- Entry (p, q) of the output's block at point t sits at entry (4000·t + p, q) of the output. -/
theorem out_pos (t : Fin cfg1.N) (p : Fin 4000) (q : Fin 128) (R : Fin 200000) (hR : R.val = 4000 * t.val + p.val) :
    (((cfg1.win 5).blk t).view.emb (ix2 p q) : S200000x128.Idx) = ix2 R q := by
  obtain ⟨-, -, -, -, -, -, -, -, -, -, e0, e1⟩ := block_index t
  refine funext fun a => Fin.ext ?_
  match a with
  | ⟨0, _⟩ => show win1_5.index t (0 : Fin 2) * 4000 + 1 * p.val = R.val; omega
  | ⟨1, _⟩ => show win1_5.index t (1 : Fin 2) * 128 + 1 * q.val = q.val; omega

/-! ## What a grid point writes back, and the whole output -/

/-- The layer function of the five arrays as the call finds them. -/
abbrev layer (c : Dev nD) : S200000x128.Idx → EReal :=
  Cert.Spec.fusedRow (V c main_v21) (V c main_v32) (V c main_v31) (V c main_v33) (V c main_v34)

/-- What point t writes back is rows 4000·t … 4000·t + 3999 of the layer function: entry (p, q) of the block computed
    reads row p of the block of x, which is row 4000·t + p of x, entry p of the block of s, which is entry 4000·t + p
    of s, and the whole of w, wr and b. -/
theorem flushed_eq (c : Dev nD) (t : Fin cfg1.N) :
    (Gen.dat1 (F := Ideal) V c).flushed 5 t = ((cfg1.win 5).blk t).view.read (Elt Ideal) (layer V c) := by
  show (cfg1.win 5).cut (grid1.coords t) ((Gen.dat1 V c).after 5 t) = _
  rw [Gen.after1_5]
  unfold Gen.out1_5
  rw [View.canon_unit_zero zero_offsets]
  simp only [View.ld_unit_zero (S := S4000x128) zero_offsets, View.ld_unit_zero (S := S128x128) zero_offsets,
    View.ld_unit_zero (S := S4000x1) zero_offsets, View.ld_unit_zero (S := S1x128) zero_offsets]
  funext y
  obtain ⟨p, q, rfl⟩ : ∃ (p : Fin 4000) (q : Fin 128), y = ix2 p q := ⟨y 0, y 1, eq_ix2 (n0 := 4000) (n1 := 128) y⟩
  have ht : t.val < 50 := lt_of_lt_of_eq t.isLt N_1
  have hp : p.val < 4000 := p.isLt
  have hR : (⟨4000 * t.val + p.val, by omega⟩ : Fin 200000).val = 4000 * t.val + p.val := rfl
  show Gen.k1_pay1 (F := Ideal) (Gen.iblk1 V c 0 t) (Gen.iblk1 V c 1 t) (Gen.iblk1 V c 2 t) (Gen.iblk1 V c 3 t)
      (Gen.iblk1 V c 4 t) (ix2 p q) = layer V c (((cfg1.win 5).blk t).view.emb (ix2 p q))
  rw [payload_apply, out_pos t p q _ hR]
  unfold layer
  rw [Cert.Spec.fusedRow_apply, read_s V c t p _ hR, read_wr V c t q, read_b V c t q]
  refine congrArg (fun z => max ((z + _) + _) 0) ?_
  exact Finset.sum_congr rfl fun j _ => by rw [read_x V c t p j _ hR, read_w V c t j q]

/-- An entry of the output is in point t's block iff each of its coordinates is in the block's range on its axis. -/
theorem mem_block (t : Fin cfg1.N) (i : S200000x128.Idx) :
    i ∈ ((cfg1.win 5).blk t).view.set ↔ ∀ a : Fin 2, win1_5.index t a * S4000x128.size a ≤ (i a).val
      ∧ (i a).val < win1_5.index t a * S4000x128.size a + S4000x128.size a := by
  show i ∈ ((View.whole main_v35).slice (win1_5.rect t)).set ↔ _
  rw [View.set_slice_whole, Rect.mem_set_unit]
  exact Iff.rfl

/-- Every entry of the output is in some point's block: row r is in the block of point r / 4000. -/
theorem covered (i : S200000x128.Idx) :
    ∃ t : Fin cfg1.N, (cfg1.win 5).flush t = true ∧ i ∈ ((cfg1.win 5).blk t).view.set := by
  have hi0 : (i 0).val < 200000 := (i 0).isLt
  have hi1 : (i 1).val < 128 := (i 1).isLt
  have hN : (i 0).val / 4000 < cfg1.N := lt_of_lt_of_eq (by omega : (i 0).val / 4000 < 50) N_1.symm
  obtain ⟨-, -, -, -, -, -, -, -, -, -, e0, e1⟩ := block_index ⟨(i 0).val / 4000, hN⟩
  refine ⟨⟨(i 0).val / 4000, hN⟩, flush1_5 _, ?_⟩
  rw [mem_block]
  intro a
  match a with
  | ⟨0, _⟩ =>
    show win1_5.index ⟨(i 0).val / 4000, hN⟩ (0 : Fin 2) * 4000 ≤ (i 0).val
      ∧ (i 0).val < win1_5.index ⟨(i 0).val / 4000, hN⟩ (0 : Fin 2) * 4000 + 4000
    rw [e0]; show (i 0).val / 4000 * 4000 ≤ (i 0).val ∧ (i 0).val < (i 0).val / 4000 * 4000 + 4000; omega
  | ⟨1, _⟩ =>
    show win1_5.index ⟨(i 0).val / 4000, hN⟩ (1 : Fin 2) * 128 ≤ (i 1).val
      ∧ (i 1).val < win1_5.index ⟨(i 0).val / 4000, hN⟩ (1 : Fin 2) * 128 + 128
    rw [e1]; omega

/-- After the call the output array is the layer function of the five arrays the call finds, whatever they hold:
    each point writes its rows of it, and the 50 blocks of rows cover the array. -/
theorem final (c : Dev nD) :
    ((Gen.dat1 (F := Ideal) V c).arrAt 5 cfg1.N : S200000x128.Idx → EReal)
      = Cert.Spec.fusedRow (V c main_v21) (V c main_v32) (V c main_v31) (V c main_v33) (V c main_v34) :=
  (Gen.dat1 (F := Ideal) V c).arrAt_eq_of_cover 5 (layer V c) (fun t _ => flushed_eq V c t) covered

end Cert.KernelIdeal.Region1

end
-- ==== Proof.KernelValue.lean ====
/-
  What the idealized kernel program's result buffer holds at the end, as ONE function of the eight argument arrays.
  The last call writes every block of the result, so the result is the second dense layer applied to what the host
  operations between the calls leave: the literal sums of the first call's rows, the literal sums of the
  clause-feature column, the second weight matrix cut into its first 128 rows and its last row, and the second bias as
  a row.  The first call's result, in turn, is the first dense layer applied to the clause sums of literal rows.  A
  gather followed by a scatter-add into zero is a segment sum, so the whole is two dense layers around segment sums.
-/
import proofs.«104024_j24507083391230_2_alg».proof.Proof.KernelRun
import proofs.«104024_j24507083391230_2_alg».proof.Proof.HostStretch
import proofs.«104024_j24507083391230_2_alg».proof.Proof.LibSegmentSum
import proofs.«104024_j24507083391230_2_alg».proof.Proof.Region0
import proofs.«104024_j24507083391230_2_alg».proof.Proof.Region1

set_option maxRecDepth 16384

noncomputable section

namespace Cert.KernelIdeal.KernelValue

open Idealize.ShloMosaic Idealize.ShloMosaic.TcCoe Idealize.SL.Sem Idealize.ShloMosaic.ValueIdx
open Cert.KernelIdeal Cert.KernelIdeal.Gen Cert.KernelIdeal.HostValue
open Cert.Spec Cert.Layers Cert.Segments
open Idealize.ShloMosaic.GatherTable Idealize.ShloMosaic.ScatterRows

/-- The clause sums of literal rows: for every edge the literal row named by its first endpoint, summed onto the
    clause named by its second. -/
def clauseSums (a0 : FVec Ideal S200000x128 .f32) (a6 a7 : IVec S1600000 32) : FVec Ideal S400000x128 .f32 :=
  segSum (N := 200000) (M := 400000) (C := 128) (E := 1600000) (by norm_num) a0 (wrapCol (F := Ideal) 200000#32 a6) (col (F := Ideal) a7)

/-- The clause embeddings: the first dense layer of the clause sums. -/
def clauseEmb (a0 : FVec Ideal S200000x128 .f32) (a2 : FVec Ideal S128x128 .f32) (a3 : FVec Ideal S128 .f32)
    (a6 a7 : IVec S1600000 32) : FVec Ideal S400000x128 .f32 :=
  biasRelu (mm (clauseSums a0 a6 a7) a2) a3

/-- The program's result as a function of its arguments. -/
def out (a0 : FVec Ideal S200000x128 .f32) (a1 : FVec Ideal S400000x1 .f32) (a2 : FVec Ideal S128x128 .f32)
    (a3 : FVec Ideal S128 .f32) (a4 : FVec Ideal S129x128 .f32) (a5 : FVec Ideal S128 .f32) (a6 a7 : IVec S1600000 32) :
    FVec Ideal S200000x128 .f32 :=
  fusedRow
    (segSum (N := 400000) (M := 200000) (C := 128) (E := 1600000) (by norm_num) (clauseEmb a0 a2 a3 a6 a7)
      (wrapCol (F := Ideal) 400000#32 a7) (col (F := Ideal) a6))
    (extractStridedSlice S128x128 ![0, 0] a4 slices_S129x128_S128x128_0_0)
    (segSum (N := 400000) (M := 200000) (C := 1) (E := 1600000) (by norm_num) a1
      (wrapCol (F := Ideal) 400000#32 a7) (col (F := Ideal) a6))
    (extractStridedSlice S1x128 ![128, 0] a4 slices_S129x128_S1x128_128_0)
    (shapeCast S1x128 a5 shapeCasts_S128_S1x128)

theorem fusedRow_congr {n k c : ℕ} {x x' : FVec Ideal ⟨2, ![n, k]⟩ .f32} {w w' : FVec Ideal ⟨2, ![k, c]⟩ .f32}
    {s s' : FVec Ideal ⟨2, ![n, 1]⟩ .f32} {wr wr' b b' : FVec Ideal ⟨2, ![1, c]⟩ .f32}
    (hx : x = x') (hw : w = w') (hs : s = s') (hwr : wr = wr') (hb : b = b') :
    fusedRow x w s wr b = fusedRow x' w' s' wr' b' := by subst hx hw hs hwr hb; rfl

variable (m : (ℓ : Loc nD τ sig) → Buf (Elt Ideal) ℓ) (ρ : Dev nD → PrngReg)

/-! ## The argument arrays as the second stretch of host operations finds them -/

theorem W1_arg (c : Dev nD) (b : Ref sig .tc) (h : StableHlo.after hostOps0 (W0 m ρ c) (Proc.devRef .tc b) = W0 m ρ c (Proc.devRef .tc b)) :
    W1 m ρ c (Proc.devRef .tc b) = m ((c : Thread nD τ).loc b) := h

theorem W2_arg1 (c : Dev nD) : W2 m ρ c (Proc.devRef .tc main_arg1) = m ((c : Thread nD τ).loc main_arg1) :=
  (W2_of_ne m ρ c main_arg1 (by decide)).trans (stretch0_arg1 (W0 m ρ c))
theorem W2_arg4 (c : Dev nD) : W2 m ρ c (Proc.devRef .tc main_arg4) = m ((c : Thread nD τ).loc main_arg4) :=
  (W2_of_ne m ρ c main_arg4 (by decide)).trans (stretch0_arg4 (W0 m ρ c))
theorem W2_arg5 (c : Dev nD) : W2 m ρ c (Proc.devRef .tc main_arg5) = m ((c : Thread nD τ).loc main_arg5) :=
  (W2_of_ne m ρ c main_arg5 (by decide)).trans (stretch0_arg5 (W0 m ρ c))
theorem W2_arg6 (c : Dev nD) : W2 m ρ c (Proc.devRef .tc main_arg6) = m ((c : Thread nD τ).loc main_arg6) :=
  (W2_of_ne m ρ c main_arg6 (by decide)).trans (stretch0_arg6 (W0 m ρ c))
theorem W2_arg7 (c : Dev nD) : W2 m ρ c (Proc.devRef .tc main_arg7) = m ((c : Thread nD τ).loc main_arg7) :=
  (W2_of_ne m ρ c main_arg7 (by decide)).trans (stretch0_arg7 (W0 m ρ c))

/-! ## The first call's result -/

/-- The first call leaves the clause embeddings. -/
theorem W2_v11 (c : Dev nD) : W2 m ρ c (Proc.devRef .tc main_v11)
    = clauseEmb (m ((c : Thread nD τ).loc main_arg0)) (m ((c : Thread nD τ).loc main_arg2)) (m ((c : Thread nD τ).loc main_arg3))
        (m ((c : Thread nD τ).loc main_arg6)) (m ((c : Thread nD τ).loc main_arg7)) := by
  refine (W2_arr m ρ c 3).trans ?_
  refine (Cert.KernelIdeal.Region0.final (V1 m ρ) c).trans ?_
  have e9 : V1 m ρ c main_v9 = clauseSums (m ((c : Thread nD τ).loc main_arg0)) (m ((c : Thread nD τ).loc main_arg6)) (m ((c : Thread nD τ).loc main_arg7)) :=
    (stretch0_v9 (W0 m ρ c)).trans
      (host_segSum (N := 200000) (M := 400000) (C := 128) (E := 1600000) (by norm_num) _ gather_S200000x128_S1600000x1_S1600000x128_1_0_n_n_0_1_1128_wf rfl
        _ scatter_S400000x128_S1600000x1_S1600000x128_1_0_0_1_wf rfl bcast_S_S400000x128 _ _ _)
  have e2 : V1 m ρ c main_arg2 = m ((c : Thread nD τ).loc main_arg2) := stretch0_arg2 (W0 m ρ c)
  have e10 : V1 m ρ c main_v10 = shapeCast S1x128 (m ((c : Thread nD τ).loc main_arg3)) shapeCasts_S128_S1x128 :=
    stretch0_v10 (W0 m ρ c)
  rw [e9, e2, e10]
  exact biasReluRow_cast shapeCasts_S128_S1x128 _ _

/-! ## The result -/

/-- The result buffer at the end of the run is `out` of the arguments as launched. -/
theorem result_eq (c : Dev nD) : W4 m ρ c (Proc.devRef .tc main_v35)
    = out (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) := by
  refine (W4_arr m ρ c 5).trans ?_
  refine (Cert.KernelIdeal.Region1.final (V3 m ρ) c).trans ?_
  unfold out
  refine fusedRow_congr ?_ ?_ ?_ ?_ ?_
  · refine (stretch1_v21 (W2 m ρ c)).trans ?_
    rw [W2_arg6, W2_arg7, W2_v11]
    exact host_segSum (N := 400000) (M := 200000) (C := 128) (E := 1600000) (by norm_num) _ gather_S400000x128_S1600000x1_S1600000x128_1_0_n_n_0_1_1128_wf rfl
      _ scatter_S200000x128_S1600000x1_S1600000x128_1_0_0_1_wf rfl bcast_S_S200000x128 _ _ _
  · refine (stretch1_v32 (W2 m ρ c)).trans ?_
    rw [W2_arg4]
  · refine (stretch1_v31 (W2 m ρ c)).trans ?_
    rw [W2_arg6, W2_arg7, W2_arg1]
    exact host_segSum (N := 400000) (M := 200000) (C := 1) (E := 1600000) (by norm_num) _ gather_S400000x1_S1600000x1_S1600000x1_1_0_n_n_0_1_11_wf rfl
      _ scatter_S200000x1_S1600000x1_S1600000x1_1_0_0_1_wf rfl bcast_S_S200000x1 _ _ _
  · refine (stretch1_v33 (W2 m ρ c)).trans ?_
    rw [W2_arg4]
  · refine (stretch1_v34 (W2 m ρ c)).trans ?_
    rw [W2_arg5]

end Cert.KernelIdeal.KernelValue

end
-- ==== Proof.RefValue.lean ====
/-
  What the idealized reference computes, as ONE function of the eight argument arrays: two dense layers around segment
  sums.  The reference concatenates the clause embeddings with the clause-feature column into a 129-column table,
  gathers and sums its rows onto the literals, and applies the second dense layer with the whole 129-row weight matrix.
-/
import proofs.«104024_j24507083391230_2_alg».proof.Proof.Gen.ReferenceIdeal.Run
import proofs.«104024_j24507083391230_2_alg».proof.Proof.LibSegmentSum

noncomputable section

namespace Cert.ReferenceIdeal.RefValue

open Idealize.ShloMosaic Idealize.ShloMosaic.TcCoe Idealize.SL.Sem Idealize.ShloMosaic.ValueIdx
open Cert.ReferenceIdeal Cert.ReferenceIdeal.Gen
open Cert.Spec Cert.Layers Cert.Segments

/-- An index vector as a column of row indices, a negative entry wrapped once by the table's length `n`. -/
def wrapCol (n : BitVec 32) (i : IVec S1600000 32) : IVec S1600000x1 32 :=
  broadcastInDim S1600000x1 ![0] bcast_S1600000_S1600000x1_0
    (select (cmpi .slt i (broadcastInDim S1600000 ![] bcast_S_S1600000 (constantI S_ 32 0#32)))
      (addi i (broadcastInDim S1600000 ![] bcast_S_S1600000 (constantI S_ 32 n))) i)

/-- An index vector as a column, as it is. -/
def col (i : IVec S1600000 32) : IVec S1600000x1 32 :=
  broadcastInDim S1600000x1 ![0] bcast_S1600000_S1600000x1_0 i

/-- The clause sums of literal rows. -/
def clauseSums (a0 : FVec Ideal S200000x128 .f32) (a6 a7 : IVec S1600000 32) : FVec Ideal S400000x128 .f32 :=
  segSum (N := 200000) (M := 400000) (C := 128) (E := 1600000) (by norm_num) a0 (wrapCol 200000#32 a6) (col a7)

/-- The clause embeddings: the first dense layer of the clause sums. -/
def clauseEmb (a0 : FVec Ideal S200000x128 .f32) (a2 : FVec Ideal S128x128 .f32) (a3 : FVec Ideal S128 .f32)
    (a6 a7 : IVec S1600000 32) : FVec Ideal S400000x128 .f32 :=
  biasRelu (mm (clauseSums a0 a6 a7) a2) a3

/-- The clause embeddings with the clause-feature column appended. -/
def messages (a0 : FVec Ideal S200000x128 .f32) (a1 : FVec Ideal S400000x1 .f32) (a2 : FVec Ideal S128x128 .f32)
    (a3 : FVec Ideal S128 .f32) (a6 a7 : IVec S1600000 32) : FVec Ideal S400000x129 .f32 :=
  concatenate S400000x129 1 [⟨S400000x128, clauseEmb a0 a2 a3 a6 a7⟩, ⟨S400000x1, a1⟩] concatenates_S400000x128_S400000x1_S400000x129_d1

/-- The reference's result as a function of its arguments. -/
def out (a0 : FVec Ideal S200000x128 .f32) (a1 : FVec Ideal S400000x1 .f32) (a2 : FVec Ideal S128x128 .f32)
    (a3 : FVec Ideal S128 .f32) (a4 : FVec Ideal S129x128 .f32) (a5 : FVec Ideal S128 .f32) (a6 a7 : IVec S1600000 32) :
    FVec Ideal S200000x128 .f32 :=
  biasRelu (mm (segSum (N := 400000) (M := 200000) (C := 129) (E := 1600000) (by norm_num) (messages a0 a1 a2 a3 a6 a7)
    (wrapCol 400000#32 a7) (col a6)) a4) a5

/-- A dense layer on the host — a product, a bias broadcast down the rows, a maximum with the zero splat — is the
    layer function. -/
theorem hostLayer_eq {n k c : ℕ} (d : DotDims ⟨2, ![n, k]⟩ ⟨2, ![k, c]⟩ ⟨2, ![n, c]⟩)
    (wf : DotDims.WF ⟨2, ![n, k]⟩ ⟨2, ![k, c]⟩ ⟨2, ![n, c]⟩ [1] [0] [0] [1] [] [])
    (hd : d = ⟨[1], [0], [0], [1], [], [], wf⟩)
    (h1 : (⟨1, ![c]⟩ : Shape).BroadcastsInDim ⟨2, ![1, c]⟩ ![1])
    (h2 : (⟨2, ![1, c]⟩ : Shape).BroadcastsInDim ⟨2, ![n, c]⟩ ![0, 1])
    (h0 : (⟨0, ![]⟩ : Shape).BroadcastsInDim ⟨2, ![n, c]⟩ ![])
    (x : FVec Ideal ⟨2, ![n, k]⟩ .f32) (w : FVec Ideal ⟨2, ![k, c]⟩ .f32) (b : FVec Ideal ⟨1, ![c]⟩ .f32) :
    maximumf (addf (Host.dotGeneral d none x w)
        (broadcastInDim ⟨2, ![n, c]⟩ ![0, 1] h2 (broadcastInDim ⟨2, ![1, c]⟩ ![1] h1 b)))
        (broadcastInDim ⟨2, ![n, c]⟩ ![] h0 (constant (F := Ideal) ⟨0, ![]⟩ .f32 0x00000000#32))
      = biasRelu (mm x w) b :=
  (hostBiasRelu_eq h1 h2 h0 _ b).trans (by rw [hostDot_eq_mm d wf hd none x w])

/-- The composed term of the reference's run is `out` of the arguments. -/
theorem term_eq (a0 : FVec Ideal S200000x128 .f32) (a1 : FVec Ideal S400000x1 .f32) (a2 : FVec Ideal S128x128 .f32)
    (a3 : FVec Ideal S128 .f32) (a4 : FVec Ideal S129x128 .f32) (a5 : FVec Ideal S128 .f32) (a6 a7 : IVec S1600000 32) :
    maximumf (addf (Host.dotGeneral dot_S200000x129_S129x128_S200000x128_1_0_0_1_n_n none (Host.scatterAdd scatter_S200000x129_S1600000x1_S1600000x129_1_0_0_1 (broadcastInDim S200000x129 ![] bcast_S_S200000x129 (constant (F := Ideal) S_ .f32 0x00000000#32)) (broadcastInDim S1600000x1 ![0] bcast_S1600000_S1600000x1_0 a6) (Host.gather gather_S400000x129_S1600000x1_S1600000x129_1_0_n_n_0_1_1129 (concatenate S400000x129 1 [⟨S400000x128, (maximumf (addf (Host.dotGeneral dot_S400000x128_S128x128_S400000x128_1_0_0_1_n_n none (Host.scatterAdd scatter_S400000x128_S1600000x1_S1600000x128_1_0_0_1 (broadcastInDim S400000x128 ![] bcast_S_S400000x128 (constant (F := Ideal) S_ .f32 0x00000000#32)) (broadcastInDim S1600000x1 ![0] bcast_S1600000_S1600000x1_0 a7) (Host.gather gather_S200000x128_S1600000x1_S1600000x128_1_0_n_n_0_1_1128 a0 (broadcastInDim S1600000x1 ![0] bcast_S1600000_S1600000x1_0 (select (cmpi .slt a6 (broadcastInDim S1600000 ![] bcast_S_S1600000 (constantI S_ 32 0#32))) (addi a6 (broadcastInDim S1600000 ![] bcast_S_S1600000 (constantI S_ 32 200000#32))) a6)))) a2) (broadcastInDim S400000x128 ![0, 1] bcast_S1x128_S400000x128_0_1 (broadcastInDim S1x128 ![1] bcast_S128_S1x128_1 a3))) (broadcastInDim S400000x128 ![] bcast_S_S400000x128 (constant (F := Ideal) S_ .f32 0x00000000#32)))⟩, ⟨S400000x1, a1⟩] concatenates_S400000x128_S400000x1_S400000x129_d1) (broadcastInDim S1600000x1 ![0] bcast_S1600000_S1600000x1_0 (select (cmpi .slt a7 (broadcastInDim S1600000 ![] bcast_S_S1600000 (constantI S_ 32 0#32))) (addi a7 (broadcastInDim S1600000 ![] bcast_S_S1600000 (constantI S_ 32 400000#32))) a7)))) a4) (broadcastInDim S200000x128 ![0, 1] bcast_S1x128_S200000x128_0_1 (broadcastInDim S1x128 ![1] bcast_S128_S1x128_1 a5))) (broadcastInDim S200000x128 ![] bcast_S_S200000x128 (constant (F := Ideal) S_ .f32 0x00000000#32))
      = out a0 a1 a2 a3 a4 a5 a6 a7 := by
  have hsums : Host.scatterAdd scatter_S400000x128_S1600000x1_S1600000x128_1_0_0_1
        (broadcastInDim S400000x128 ![] bcast_S_S400000x128 (constant (F := Ideal) S_ .f32 0x00000000#32)) (col a7)
        (Host.gather gather_S200000x128_S1600000x1_S1600000x128_1_0_n_n_0_1_1128 a0 (wrapCol 200000#32 a6))
      = clauseSums a0 a6 a7 :=
    host_segSum (N := 200000) (M := 400000) (C := 128) (E := 1600000) (by norm_num) _
      gather_S200000x128_S1600000x1_S1600000x128_1_0_n_n_0_1_1128_wf rfl
      _ scatter_S400000x128_S1600000x1_S1600000x128_1_0_0_1_wf rfl bcast_S_S400000x128 _ _ _
  have hemb : maximumf (addf (Host.dotGeneral dot_S400000x128_S128x128_S400000x128_1_0_0_1_n_n none
        (clauseSums a0 a6 a7) a2)
        (broadcastInDim S400000x128 ![0, 1] bcast_S1x128_S400000x128_0_1 (broadcastInDim S1x128 ![1] bcast_S128_S1x128_1 a3)))
        (broadcastInDim S400000x128 ![] bcast_S_S400000x128 (constant (F := Ideal) S_ .f32 0x00000000#32))
      = clauseEmb a0 a2 a3 a6 a7 :=
    hostLayer_eq _ dot_S400000x128_S128x128_S400000x128_1_0_0_1_n_n_wf rfl bcast_S128_S1x128_1
      bcast_S1x128_S400000x128_0_1 bcast_S_S400000x128 _ a2 a3
  show maximumf (addf (Host.dotGeneral dot_S200000x129_S129x128_S200000x128_1_0_0_1_n_n none
      (Host.scatterAdd scatter_S200000x129_S1600000x1_S1600000x129_1_0_0_1
        (broadcastInDim S200000x129 ![] bcast_S_S200000x129 (constant (F := Ideal) S_ .f32 0x00000000#32)) (col a6)
        (Host.gather gather_S400000x129_S1600000x1_S1600000x129_1_0_n_n_0_1_1129
          (concatenate S400000x129 1 [⟨S400000x128, maximumf (addf (Host.dotGeneral dot_S400000x128_S128x128_S400000x128_1_0_0_1_n_n none
            (Host.scatterAdd scatter_S400000x128_S1600000x1_S1600000x128_1_0_0_1
              (broadcastInDim S400000x128 ![] bcast_S_S400000x128 (constant (F := Ideal) S_ .f32 0x00000000#32)) (col a7)
              (Host.gather gather_S200000x128_S1600000x1_S1600000x128_1_0_n_n_0_1_1128 a0 (wrapCol 200000#32 a6))) a2)
            (broadcastInDim S400000x128 ![0, 1] bcast_S1x128_S400000x128_0_1 (broadcastInDim S1x128 ![1] bcast_S128_S1x128_1 a3)))
            (broadcastInDim S400000x128 ![] bcast_S_S400000x128 (constant (F := Ideal) S_ .f32 0x00000000#32))⟩, ⟨S400000x1, a1⟩]
            concatenates_S400000x128_S400000x1_S400000x129_d1) (wrapCol 400000#32 a7))) a4)
      (broadcastInDim S200000x128 ![0, 1] bcast_S1x128_S200000x128_0_1 (broadcastInDim S1x128 ![1] bcast_S128_S1x128_1 a5)))
      (broadcastInDim S200000x128 ![] bcast_S_S200000x128 (constant (F := Ideal) S_ .f32 0x00000000#32)) = _
  rw [hsums, hemb]
  refine (hostLayer_eq _ dot_S200000x129_S129x128_S200000x128_1_0_0_1_n_n_wf rfl bcast_S128_S1x128_1
    bcast_S1x128_S200000x128_0_1 bcast_S_S200000x128 _ a4 a5).trans ?_
  unfold out messages
  refine congrArg (fun z => biasRelu (mm z a4) a5) ?_
  exact host_segSum (N := 400000) (M := 200000) (C := 129) (E := 1600000) (by norm_num) _
    gather_S400000x129_S1600000x1_S1600000x129_1_0_n_n_0_1_1129_wf rfl
    _ scatter_S200000x129_S1600000x1_S1600000x129_1_0_0_1_wf rfl bcast_S_S200000x129 _ _ _

end Cert.ReferenceIdeal.RefValue

end
-- ==== Proof.Bridge.lean ====
/-
  The two programs compute one function.  The reference appends the clause-feature column to the clause embeddings,
  sums the gathered 129-column rows onto the literals and multiplies by the whole 129-row weight matrix; the kernel
  program sums the 128 embedding columns and the clause-feature column apart, multiplies the first by the weight
  matrix's first 128 rows and adds the second times the last row.  A segment sum works column by column and a sum over
  129 inner coordinates is the sum over the first 128 plus the last term, so the two agree entry by entry on the
  extended reals; no finiteness of the inputs is needed.
-/
import proofs.«104024_j24507083391230_2_alg».proof.Proof.KernelValue
import proofs.«104024_j24507083391230_2_alg».proof.Proof.RefValue

noncomputable section

namespace Cert.Bridge

open Idealize.ShloMosaic Idealize.ShloMosaic.ValueIdx
open Cert.Spec Cert.Layers Cert.Segments

/-- The index columns are spelt alike in both programs. -/
theorem wrapCol_eq (n : BitVec 32) (i : IVec ⟨1, ![1600000]⟩ 32) :
    Cert.ReferenceIdeal.RefValue.wrapCol n i = Cert.KernelIdeal.HostValue.wrapCol (F := Ideal) n i := rfl

theorem col_eq (i : IVec ⟨1, ![1600000]⟩ 32) :
    Cert.ReferenceIdeal.RefValue.col i = Cert.KernelIdeal.HostValue.col (F := Ideal) i := rfl

/-- Both programs compute the clause embeddings in the same way. -/
theorem clauseEmb_eq (a0 : FVec Ideal ⟨2, ![200000, 128]⟩ .f32) (a2 : FVec Ideal ⟨2, ![128, 128]⟩ .f32)
    (a3 : FVec Ideal ⟨1, ![128]⟩ .f32) (a6 a7 : IVec ⟨1, ![1600000]⟩ 32) :
    Cert.ReferenceIdeal.RefValue.clauseEmb a0 a2 a3 a6 a7 = Cert.KernelIdeal.KernelValue.clauseEmb a0 a2 a3 a6 a7 := by
  unfold Cert.ReferenceIdeal.RefValue.clauseEmb Cert.KernelIdeal.KernelValue.clauseEmb
    Cert.ReferenceIdeal.RefValue.clauseSums Cert.KernelIdeal.KernelValue.clauseSums
  rw [wrapCol_eq, col_eq]

/-- The reference's function of the arguments is the kernel program's. -/
theorem out_eq (a0 : FVec Ideal ⟨2, ![200000, 128]⟩ .f32) (a1 : FVec Ideal ⟨2, ![400000, 1]⟩ .f32)
    (a2 : FVec Ideal ⟨2, ![128, 128]⟩ .f32) (a3 : FVec Ideal ⟨1, ![128]⟩ .f32) (a4 : FVec Ideal ⟨2, ![129, 128]⟩ .f32)
    (a5 : FVec Ideal ⟨1, ![128]⟩ .f32) (a6 a7 : IVec ⟨1, ![1600000]⟩ 32) :
    Cert.ReferenceIdeal.RefValue.out a0 a1 a2 a3 a4 a5 a6 a7 = Cert.KernelIdeal.KernelValue.out a0 a1 a2 a3 a4 a5 a6 a7 := by
  unfold Cert.ReferenceIdeal.RefValue.out Cert.KernelIdeal.KernelValue.out Cert.ReferenceIdeal.RefValue.messages
  rw [clauseEmb_eq, wrapCol_eq, col_eq]
  refine bridge (N := 400000) (M := 200000) (K := 128) (C := 128) (E := 1600000) (by norm_num)
    (Cert.KernelIdeal.KernelValue.clauseEmb a0 a2 a3 a6 a7) a1 _ (fun r j => ?_) (fun r => ?_) a4 _ _ (fun j q => ?_) (fun q => ?_)
    a5 _ (fun q => ?_) _ _
  · -- an old column of the widened table is the embeddings' column
    exact concatenate_pair_apply_left (t := ⟨2, ![400000, 129]⟩) (s₁ := ⟨2, ![400000, 128]⟩) (s₂ := ⟨2, ![400000, 1]⟩) 1
      (Cert.KernelIdeal.KernelValue.clauseEmb a0 a2 a3 a6 a7) a1
      Cert.ReferenceIdeal.Facts₀.concatenates_S400000x128_S400000x1_S400000x129_d1 (ix2 r j.castSucc) rfl (ix2 r j) (fun b => by
      match b with
      | ⟨0, _⟩ => rfl
      | ⟨1, _⟩ => rfl)
  · -- the new column is the clause-feature column
    exact concatenate_pair_apply_right (t := ⟨2, ![400000, 129]⟩) (s₁ := ⟨2, ![400000, 128]⟩) (s₂ := ⟨2, ![400000, 1]⟩) 1
      (Cert.KernelIdeal.KernelValue.clauseEmb a0 a2 a3 a6 a7) a1
      Cert.ReferenceIdeal.Facts₀.concatenates_S400000x128_S400000x1_S400000x129_d1 (ix2 r (Fin.last 128)) rfl rfl (ix2 r (0 : Fin 1))
      (fun b hb => by
        match b with
        | ⟨0, _⟩ => rfl
        | ⟨1, _⟩ => exact absurd rfl hb)
      rfl
  · -- the first 128 rows of the weight matrix
    exact extractStridedSlice_apply _ a4 _ (ix2 j q) (ix2 j.castSucc q) (fun a => by
      match a with
      | ⟨0, _⟩ => show j.val = 0 + j.val; omega
      | ⟨1, _⟩ => show q.val = 0 + q.val; omega)
  · -- its last row
    exact extractStridedSlice_apply _ a4 _ (ix2 (0 : Fin 1) q) (ix2 (Fin.last 128) q) (fun a => by
      match a with
      | ⟨0, _⟩ => show 128 = 128 + 0; rfl
      | ⟨1, _⟩ => show q.val = 0 + q.val; omega)
  · -- the bias as a row
    exact Cert.KernelBody.shapeCast_row_apply a5 _ q

end Cert.Bridge

end
-- ==== Proof.lean ====
/-
  A message-passing step on a literal–clause graph: the kernel program against its plain reference, equal as functions
  on the extended reals.

  Both programs first sum, for every edge, the literal's feature row onto the edge's clause, and apply a dense layer
  (a 128×128 product, a bias, the positive part) to get the clause embeddings.  The reference then appends the
  clause-feature column to the embeddings, sums the 129-column rows back onto the literals along the edges, and applies
  the second dense layer with the whole 129×128 weight matrix.  The kernel program never forms the 129-column table: it
  sums the 128 embedding columns and the clause-feature column apart, and its second call computes the product with the
  weight matrix's first 128 rows, adds the clause-feature sum times the last row, then the bias and the positive part.
  The dense layers run as two calls over row blocks of 4000 rows; a block of the result depends on the same block of
  the row-blocked inputs and on the whole weights and bias, so the calls' results are the layer functions of the whole
  arrays.  Rounding the matrix operands to a narrower format is the identity on the extended reals.

  The two results agree because a segment sum works column by column and a sum over 129 inner coordinates is the sum
  over the first 128 plus the last term — associativity of addition only, valid with infinite entries too, so the
  finiteness precondition is never opened.  The idealization rewrote nothing, so its preservation claim is trivial.
-/
import proofs.«104024_j24507083391230_2_alg».proof.Defs
import proofs.«104024_j24507083391230_2_alg».proof.Proof.Gen.Kernel
import proofs.«104024_j24507083391230_2_alg».proof.Proof.Gen.Kernel.Skeleton
import proofs.«104024_j24507083391230_2_alg».proof.Proof.Gen.Kernel.Launch
import proofs.«104024_j24507083391230_2_alg».proof.Proof.Gen.Kernel.Points
import proofs.«104024_j24507083391230_2_alg».proof.Proof.Gen.Kernel.Frame
import proofs.«104024_j24507083391230_2_alg».proof.Proof.Gen.KernelIdeal
import proofs.«104024_j24507083391230_2_alg».proof.Proof.Gen.KernelIdeal.Skeleton
import proofs.«104024_j24507083391230_2_alg».proof.Proof.Gen.KernelIdeal.Launch
import proofs.«104024_j24507083391230_2_alg».proof.Proof.Gen.KernelIdeal.Points
import proofs.«104024_j24507083391230_2_alg».proof.Proof.Gen.KernelIdeal.Frame
import proofs.«104024_j24507083391230_2_alg».proof.Proof.Gen.ReferenceIdeal
import proofs.«104024_j24507083391230_2_alg».proof.Proof.Gen.ReferenceIdeal.Run
import proofs.«104024_j24507083391230_2_alg».proof.Proof.Gen.Pre_finite_inputs
import proofs.«104024_j24507083391230_2_alg».proof.Proof.KernelRun
import proofs.«104024_j24507083391230_2_alg».proof.Proof.KernelValue
import proofs.«104024_j24507083391230_2_alg».proof.Proof.RefValue
import proofs.«104024_j24507083391230_2_alg».proof.Proof.Bridge
import Idealize.ShloMosaic.Adequacy
import Idealize.ShloMosaic.Init

noncomputable section

namespace Cert.Proof

open Idealize.ShloMosaic Idealize.SL.Sem

/-- The word-level kernel program runs and leaves its arguments as launched. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- The reference is host operations only: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs end with the same result: the kernel program's result is its
    function of the arguments, the reference's composed term is the reference's function of the same arguments, and
    the two functions are one. -/
theorem algebraic : Cert.algebraic_KernelIdeal_ReferenceIdeal := by
  intro m ρ m' ρ' _ hagree
  refine ⟨fun c => Cert.KernelIdeal.KernelValue.out
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.KernelValue.result_eq m ρ c), (h c).2⟩)
      (Cert.KernelIdeal.RunValue.run_result (F := Ideal) m ρ)
  · refine (θ_run Cert.ReferenceIdeal.defs _ _).mono (fun _ h c => ⟨(h c).1.trans ?_, (h c).2⟩)
      (Cert.ReferenceIdeal.Value.run (F := Ideal) m' ρ')
    rw [(hagree c).1, (hagree c).2.1, (hagree c).2.2.1, (hagree c).2.2.2.1, (hagree c).2.2.2.2.1,
      (hagree c).2.2.2.2.2.1, (hagree c).2.2.2.2.2.2.1, (hagree c).2.2.2.2.2.2.2]
    exact (Cert.ReferenceIdeal.RefValue.term_eq _ _ _ _ _ _ _ _).trans (Cert.Bridge.out_eq _ _ _ _ _ _ _ _)

theorem claim : Cert.Claim := ⟨Cert.Kernel.Gen.facts, Cert.KernelIdeal.Gen.facts, Cert.ReferenceIdeal.Gen.facts,
  Cert.Pre_finite_inputs.Gen.facts, frame_kernel, frame_kernelIdeal, frame_referenceIdeal, preserves, algebraic⟩

end Cert.Proof

end
